-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x40 : Shape := ⟨2, ![1, 40]⟩
abbrev S1600000x128 : Shape := ⟨2, ![1600000, 128]⟩
abbrev S5000x128 : Shape := ⟨2, ![5000, 128]⟩
abbrev S5000x1 : Shape := ⟨2, ![5000, 1]⟩
abbrev S100000x40 : Shape := ⟨2, ![100000, 40]⟩
abbrev S5000x40 : Shape := ⟨2, ![5000, 40]⟩
abbrev S1600000x40 : Shape := ⟨2, ![1600000, 40]⟩

abbrev nBuf : Space → Nat
  | .hbm => 122
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x1, .f32⟩
  | .hbm, ⟨22, _⟩ => ⟨S1x128, .f32⟩
  | .hbm, ⟨23, _⟩ => ⟨S1x128, .f32⟩
  | .hbm, ⟨24, _⟩ => ⟨S_, .f32⟩
  | .hbm, ⟨25, _⟩ => ⟨S1x40, .f32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x128, .f32⟩
  | .hbm, ⟨88, _⟩ => ⟨S100000x40, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x40, .f32⟩
  | .hbm, ⟨98, _⟩ => ⟨S_, .f32⟩
  | .hbm, ⟨99, _⟩ => ⟨S100000x40, .f32⟩
  | .hbm, ⟨100, _⟩ => ⟨S1600000x1, .i32⟩
  | .hbm, ⟨101, _⟩ => ⟨S100000x40, .f32⟩
  | .hbm, ⟨102, _⟩ => ⟨S100000x40, .f32⟩
  | .hbm, ⟨103, _⟩ => ⟨S100000x40, .f32⟩
  | .hbm, ⟨104, _⟩ => ⟨S_, .i32⟩
  | .hbm, ⟨105, _⟩ => ⟨S1600000, .i32⟩
  | .hbm, ⟨106, _⟩ => ⟨S1600000, .i1⟩
  | .hbm, ⟨107, _⟩ => ⟨S_, .i32⟩
  | .hbm, ⟨108, _⟩ => ⟨S1600000, .i32⟩
  | .hbm, ⟨109, _⟩ => ⟨S1600000, .i32⟩
  | .hbm, ⟨110, _⟩ => ⟨S1600000, .i32⟩
  | .hbm, ⟨111, _⟩ => ⟨S1600000x1, .i32⟩
  | .hbm, ⟨112, _⟩ => ⟨S1600000x40, .f32⟩
  | .hbm, ⟨113, _⟩ => ⟨S_, .f32⟩
  | .hbm, ⟨114, _⟩ => ⟨S100000x40, .f32⟩
  | .hbm, ⟨115, _⟩ => ⟨S1600000x1, .i32⟩
  | .hbm, ⟨116, _⟩ => ⟨S100000x40, .f32⟩
  | .hbm, ⟨117, _⟩ => ⟨S100000x40, .f32⟩
  | .hbm, ⟨118, _⟩ => ⟨S100000x40, .f32⟩
  | .hbm, ⟨119, _⟩ => ⟨S1x40, .f32⟩
  | .hbm, ⟨120, _⟩ => ⟨S100000x40, .f32⟩
  | .hbm, ⟨121, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x40, .f32⟩
  | .local _ .vmem, ⟨19, _⟩ => ⟨S1x40, .f32⟩
  | .local _ .vmem, ⟨20, _⟩ => ⟨S5000x1, .f32⟩
  | .local _ .vmem, ⟨21, _⟩ => ⟨S5000x1, .f32⟩
  | .local _ .vmem, ⟨22, _⟩ => ⟨S5000x40, .f32⟩
  | .local _ .vmem, ⟨23, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_c_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_14 : Ref sig .tc := ⟨.hbm, 89, rfl⟩
abbrev main_v62 : Ref sig .tc := ⟨.hbm, 90, rfl⟩
abbrev main_v63 : Ref sig .tc := ⟨.hbm, 91, rfl⟩
abbrev main_c_15 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_17 : Ref sig .tc := ⟨.hbm, 104, rfl⟩
abbrev main_v74 : Ref sig .tc := ⟨.hbm, 105, rfl⟩
abbrev main_v75 : Ref sig .tc := ⟨.hbm, 106, rfl⟩
abbrev main_c_18 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_19 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  shapeCasts_S128_S1x128 : S128.ShapeCasts S1x128
  bcast_S_S1x40 : S_.BroadcastsInDim S1x40 (![] : Fin 0 → Fin S1x40.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x40.size a ≤ S100000x40.size a
  hwx2_4 : ∀ i : grid2.Coords, EltTy.bits .f32 = 32 ∨ (Rect.block (s := S100000x40) S5000x40.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_v34) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v59) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v60) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v61) S5000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 141
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x40, .f32⟩
  | 8 => ⟨S40, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S_, .f32⟩
  | 17 => ⟨S100000, .f32⟩
  | 18 => ⟨S100000, .f32⟩
  | 19 => ⟨S100000, .f32⟩
  | 20 => ⟨S100000x1, .f32⟩
  | 21 => ⟨S100000x128, .f32⟩
  | 22 => ⟨S100000x128, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S100000x128, .f32⟩
  | 37 => ⟨S100000x128, .f32⟩
  | 38 => ⟨S100000x128, .f32⟩
  | 39 => ⟨S100000x128, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S_, .f32⟩
  | 50 => ⟨S100000x128, .f32⟩
  | 51 => ⟨S1600000x1, .i32⟩
  | 52 => ⟨S100000x128, .f32⟩
  | 53 => ⟨S100000x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S100000x128, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S100000x128, .f32⟩
  | 78 => ⟨S100000x128, .f32⟩
  | 79 => ⟨S100000x128, .f32⟩
  | 80 => ⟨S100000x128, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S100000x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S100000x128, .f32⟩
  | 104 => ⟨S100000x128, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S_, .f32⟩
  | 115 => ⟨S100000x128, .f32⟩
  | 116 => ⟨S1600000x1, .i32⟩
  | 117 => ⟨S100000x128, .f32⟩
  | 118 => ⟨S100000x128, .f32⟩
  | 119 => ⟨S100000x128, .f32⟩
  | 120 => ⟨S100000x128, .f32⟩
  | 121 => ⟨S100000x128, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000x128, .f32⟩
  | 3 => ⟨S_, .f32⟩
  | 4 => ⟨S100000x128, .f32⟩
  | 5 => ⟨S1600000x1, .i32⟩
  | 6 => ⟨S100000x128, .f32⟩
  | 7 => ⟨S100000x128, .f32⟩
  | 8 => ⟨S100000x128, .f32⟩
  | 9 => ⟨S100000x40, .f32⟩
  | 10 => ⟨S1x40, .f32⟩
  | 11 => ⟨S100000x40, .f32⟩
  | 12 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_cst : Ref sig .tc := ⟨.hbm, 59, rfl⟩
abbrev main_call1_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call2_cst : Ref sig .tc := ⟨.hbm, 100, rfl⟩
abbrev main_call2_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_13 : Ref sig .tc := ⟨.hbm, 105, rfl⟩
abbrev main_v75 : Ref sig .tc := ⟨.hbm, 106, rfl⟩
abbrev main_v76 : Ref sig .tc := ⟨.hbm, 107, rfl⟩
abbrev main_c_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_15 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_16 : Ref sig .tc := ⟨.hbm, 122, rfl⟩
abbrev main_v89 : Ref sig .tc := ⟨.hbm, 123, rfl⟩
abbrev main_v90 : Ref sig .tc := ⟨.hbm, 124, rfl⟩
abbrev main_c_17 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_18 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel's run with its result named.  @main is eight segments: three stretches of host operations,
  the first pallas_call, a stretch, the second and third pallas_calls, and a last stretch.  Every weakly fair execution
  terminates without a fault with each unscoped buffer at the contents the fold through the segments gives it; read at
  the result buffer this is the last stretch's operations applied to what the third region leaves, and read at the
  argument buffers it is the launch memory.
-/
import proofs.«128273_j63677185130847_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of @main ends with the result buffer at the fold's final contents and the argument
    arrays as launched. -/
theorem run_named : θ_run defs (onTc (τ := τ) (main (F := F))) ⟨m, fun _ => 0, ρ⟩ (fun r => ∀ c : Dev nD,
      r.2.mem ((c.tc : Thread nD τ).loc main_v88) = W8 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v88 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Named

end
-- ==== Proof.KernelHost.lean ====
/-
  The host side of the idealized kernel.  Between its three pallas_calls the kernel runs the same few host
  operations over and over: the two index columns (the sources wrapped if negative, the destinations as they come),
  the node scale (the inverse square root of the in-degree clamped below at one) as a column and its square, a hop
  (gather the rows the edges read, scatter-add into zeros where they land), and products with the scale columns.
  Each stretch of host operations is read, from ANY contents of the buffers it finds, at the buffers it computes
  and at the ones it leaves alone; then the fold through the eight segments is read at the buffers the
  pallas_calls and the result need, as terms of the argument arrays.
-/
import proofs.«128273_j63677185130847_2_alg».proof.Proof.Gen.KernelIdeal.Frame
import Idealize.ShloMosaic.Lib.StableHlo.Run
import Idealize.ShloMosaic.PureOps.Ideal

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo

/-! ## The stage terms -/

/-- the destinations as a column -/
def dstCol (a2 : IVec S1600000 32) : IVec S1600000x1 32 :=
  broadcastInDim S1600000x1 ![0] bcast_S1600000_S1600000x1_0 a2

/-- the sources, wrapped if negative, as a column -/
def srcCol (a1 : IVec S1600000 32) : IVec S1600000x1 32 :=
  broadcastInDim S1600000x1 ![0] bcast_S1600000_S1600000x1_0
    (select (cmpi .slt a1 (broadcastInDim S1600000 ![] bcast_S_S1600000 (constantI S_ 32 0#32)))
      (addi a1 (broadcastInDim S1600000 ![] bcast_S_S1600000 (constantI S_ 32 100000#32))) a1)

/-- the in-degrees: ones scatter-added into zeros at the destinations -/
def degOf (a2 : IVec S1600000 32) : FVec Ideal S100000 .f32 :=
  Host.scatterAdd scatter_S100000_S1600000x1_S1600000_n_0_0_1
    (broadcastInDim S100000 ![] bcast_S_S100000 (constant (F := Ideal) S_ .f32 0x00000000#32)) (dstCol a2)
    (broadcastInDim S1600000 ![] bcast_S_S1600000 (constant (F := Ideal) S_ .f32 0x3F800000#32))

/-- the clamp from below by a scalar -/
def clipOf (lo : FVec Ideal S_ .f32) (d : FVec Ideal S100000 .f32) : FVec Ideal S100000 .f32 :=
  maximumf (broadcastInDim S100000 ![] bcast_S_S100000 (id lo)) d

/-- the inverse square root, as a column -/
def ncolOf (d : FVec Ideal S100000 .f32) : FVec Ideal S100000x1 .f32 :=
  broadcastInDim S100000x1 ![0] bcast_S100000_S100000x1_0 (Host.rsqrt d)

/-- the node scale as a column: the inverse square root of the in-degree clamped below at one -/
def ncol (a2 : IVec S1600000 32) : FVec Ideal S100000x1 .f32 :=
  ncolOf (clipOf (constant (F := Ideal) S_ .f32 0x3F800000#32) (degOf a2))

/-- the squared node scale as a column -/
def n2col (a2 : IVec S1600000 32) : FVec Ideal S100000x1 .f32 := mulf (ncol a2) (ncol a2)

/-- one hop of 128-column rows -/
def hop128 (a1 a2 : IVec S1600000 32) (h : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32)) (dstCol a2)
    (Host.gather gather_S100000x128_S1600000x1_S1600000x128_1_0_n_n_0_1_1128 h (srcCol a1))

/-- one hop of 40-column rows -/
def hop40 (a1 a2 : IVec S1600000 32) (h : FVec Ideal S100000x40 .f32) : FVec Ideal S100000x40 .f32 :=
  Host.scatterAdd scatter_S100000x40_S1600000x1_S1600000x40_1_0_0_1
    (broadcastInDim S100000x40 ![] bcast_S_S100000x40 (constant (F := Ideal) S_ .f32 0x00000000#32)) (dstCol a2)
    (Host.gather gather_S100000x40_S1600000x1_S1600000x40_1_0_n_n_0_1_140 h (srcCol a1))

/-- rows of 128 columns scaled by a column -/
def sc128 (h : FVec Ideal S100000x128 .f32) (col : FVec Ideal S100000x1 .f32) : FVec Ideal S100000x128 .f32 :=
  mulf h (broadcastInDim S100000x128 ![0, 1] bcast_S100000x1_S100000x128_0_1 col)

/-- rows of 40 columns scaled by a column -/
def sc40 (h : FVec Ideal S100000x40 .f32) (col : FVec Ideal S100000x1 .f32) : FVec Ideal S100000x40 .f32 :=
  mulf h (broadcastInDim S100000x40 ![0, 1] bcast_S100000x1_S100000x40_0_1 col)

/-- what the host prepares for the pallas_call of layers 1 and 2, from a scale column and its square -/
def preOf (a1 a2 : IVec S1600000 32) (x : FVec Ideal S100000x128 .f32) (ncl n2cl : FVec Ideal S100000x1 .f32) : FVec Ideal S100000x128 .f32 :=
  hop128 a1 a2 (sc128 (hop128 a1 a2 (sc128 x ncl)) n2cl)

/-- the same with the node scale: scale, hop, scale by the square, hop -/
def pre (a1 a2 : IVec S1600000 32) (x : FVec Ideal S100000x128 .f32) : FVec Ideal S100000x128 .f32 :=
  preOf a1 a2 x (ncol a2) (n2col a2)

/-- what the host does after the last pallas_call, from a scale column and its square -/
def postOf (a1 a2 : IVec S1600000 32) (a8 : FVec Ideal S40 .f32) (p : FVec Ideal S100000x40 .f32) (ncl n2cl : FVec Ideal S100000x1 .f32) :
    FVec Ideal S100000x40 .f32 :=
  addf (sc40 (hop40 a1 a2 (sc40 (hop40 a1 a2 p) n2cl)) ncl)
    (broadcastInDim S100000x40 ![0, 1] bcast_S1x40_S100000x40_0_1 (broadcastInDim S1x40 ![1] bcast_S40_S1x40_1 a8))

/-- the same with the node scale: hop, scale by the square, hop, scale, add the bias -/
def post (a1 a2 : IVec S1600000 32) (a8 : FVec Ideal S40 .f32) (p : FVec Ideal S100000x40 .f32) : FVec Ideal S100000x40 .f32 :=
  postOf a1 a2 a8 p (ncol a2) (n2col a2)

/-- a bias vector as a one-row matrix -/
def rowOf (b : FVec Ideal S128 .f32) : FVec Ideal S1x128 .f32 := fun i => shapeCast S1x128 b shapeCasts_S128_S1x128 i

/-- the zero bias of the last pallas_call -/
def zeroRow40 : FVec Ideal S1x40 .f32 := broadcastInDim S1x40 ![] bcast_S_S1x40 (constant (F := Ideal) S_ .f32 0x00000000#32)

/-! ## Each stretch, from any contents -/

section Stretches

variable (Wv : Valuation τ sig (Elt Ideal))

/-! ### The first stretch: the in-degrees -/

theorem s0_v3 : StableHlo.after hostOps0 Wv (Proc.devRef .tc main_v3) = degOf (Wv (Proc.devRef .tc main_arg2)) := by
  after_results_simp
  all_goals rfl

theorem s0_cst_1 : StableHlo.after hostOps0 Wv (Proc.devRef .tc main_cst_1) = constant (F := Ideal) S_ .f32 0x3F800000#32 := by
  after_results_simp
  all_goals rfl

theorem s0_arg0 : StableHlo.after hostOps0 Wv (Proc.devRef .tc main_arg0) = Wv (Proc.devRef .tc main_arg0) := by
  after_results_simp

theorem s0_arg1 : StableHlo.after hostOps0 Wv (Proc.devRef .tc main_arg1) = Wv (Proc.devRef .tc main_arg1) := by
  after_results_simp

theorem s0_arg2 : StableHlo.after hostOps0 Wv (Proc.devRef .tc main_arg2) = Wv (Proc.devRef .tc main_arg2) := by
  after_results_simp

theorem s0_arg3 : StableHlo.after hostOps0 Wv (Proc.devRef .tc main_arg3) = Wv (Proc.devRef .tc main_arg3) := by
  after_results_simp

theorem s0_arg4 : StableHlo.after hostOps0 Wv (Proc.devRef .tc main_arg4) = Wv (Proc.devRef .tc main_arg4) := by
  after_results_simp

theorem s0_arg5 : StableHlo.after hostOps0 Wv (Proc.devRef .tc main_arg5) = Wv (Proc.devRef .tc main_arg5) := by
  after_results_simp

theorem s0_arg6 : StableHlo.after hostOps0 Wv (Proc.devRef .tc main_arg6) = Wv (Proc.devRef .tc main_arg6) := by
  after_results_simp

theorem s0_arg7 : StableHlo.after hostOps0 Wv (Proc.devRef .tc main_arg7) = Wv (Proc.devRef .tc main_arg7) := by
  after_results_simp

theorem s0_arg8 : StableHlo.after hostOps0 Wv (Proc.devRef .tc main_arg8) = Wv (Proc.devRef .tc main_arg8) := by
  after_results_simp

/-! ### The clamp (a called function) -/

theorem s1_v4 : StableHlo.after hostOps0_1 Wv (Proc.devRef .tc main_v4)
    = clipOf (Wv (Proc.devRef .tc main_cst_1)) (Wv (Proc.devRef .tc main_v3)) := by
  after_results_simp
  all_goals rfl

theorem s1_arg0 : StableHlo.after hostOps0_1 Wv (Proc.devRef .tc main_arg0) = Wv (Proc.devRef .tc main_arg0) := by
  after_results_simp

theorem s1_arg1 : StableHlo.after hostOps0_1 Wv (Proc.devRef .tc main_arg1) = Wv (Proc.devRef .tc main_arg1) := by
  after_results_simp

theorem s1_arg2 : StableHlo.after hostOps0_1 Wv (Proc.devRef .tc main_arg2) = Wv (Proc.devRef .tc main_arg2) := by
  after_results_simp

theorem s1_arg3 : StableHlo.after hostOps0_1 Wv (Proc.devRef .tc main_arg3) = Wv (Proc.devRef .tc main_arg3) := by
  after_results_simp

theorem s1_arg4 : StableHlo.after hostOps0_1 Wv (Proc.devRef .tc main_arg4) = Wv (Proc.devRef .tc main_arg4) := by
  after_results_simp

theorem s1_arg5 : StableHlo.after hostOps0_1 Wv (Proc.devRef .tc main_arg5) = Wv (Proc.devRef .tc main_arg5) := by
  after_results_simp

theorem s1_arg6 : StableHlo.after hostOps0_1 Wv (Proc.devRef .tc main_arg6) = Wv (Proc.devRef .tc main_arg6) := by
  after_results_simp

theorem s1_arg7 : StableHlo.after hostOps0_1 Wv (Proc.devRef .tc main_arg7) = Wv (Proc.devRef .tc main_arg7) := by
  after_results_simp

theorem s1_arg8 : StableHlo.after hostOps0_1 Wv (Proc.devRef .tc main_arg8) = Wv (Proc.devRef .tc main_arg8) := by
  after_results_simp

/-! ### The stretch before the first pallas_call -/

set_option maxHeartbeats 2000000 in
theorem s2_v6 : StableHlo.after hostOps0_2 Wv (Proc.devRef .tc main_v6) = ncolOf (Wv (Proc.devRef .tc main_v4)) := by
  after_results_simp
  all_goals rfl

set_option maxHeartbeats 2000000 in
theorem s2_v7 : StableHlo.after hostOps0_2 Wv (Proc.devRef .tc main_v7)
    = mulf (ncolOf (Wv (Proc.devRef .tc main_v4))) (ncolOf (Wv (Proc.devRef .tc main_v4))) := by
  after_results_simp
  all_goals rfl

set_option maxHeartbeats 2000000 in
theorem s2_v8 : StableHlo.after hostOps0_2 Wv (Proc.devRef .tc main_v8) = rowOf (Wv (Proc.devRef .tc main_arg4)) := by
  after_results_simp
  all_goals rfl

set_option maxHeartbeats 2000000 in
theorem s2_v9 : StableHlo.after hostOps0_2 Wv (Proc.devRef .tc main_v9) = rowOf (Wv (Proc.devRef .tc main_arg6)) := by
  after_results_simp
  all_goals rfl

set_option maxHeartbeats 2000000 in
theorem s2_v10 : StableHlo.after hostOps0_2 Wv (Proc.devRef .tc main_v10) = zeroRow40 := by
  after_results_simp
  all_goals rfl

set_option maxHeartbeats 2000000 in
theorem s2_v34 : StableHlo.after hostOps0_2 Wv (Proc.devRef .tc main_v34)
    = preOf (Wv (Proc.devRef .tc main_arg1)) (Wv (Proc.devRef .tc main_arg2)) (Wv (Proc.devRef .tc main_arg0))
        (ncolOf (Wv (Proc.devRef .tc main_v4)))
        (mulf (ncolOf (Wv (Proc.devRef .tc main_v4))) (ncolOf (Wv (Proc.devRef .tc main_v4)))) := by
  after_results_simp
  all_goals rfl

set_option maxHeartbeats 2000000 in
theorem s2_arg1 : StableHlo.after hostOps0_2 Wv (Proc.devRef .tc main_arg1) = Wv (Proc.devRef .tc main_arg1) := by
  after_results_simp

set_option maxHeartbeats 2000000 in
theorem s2_arg2 : StableHlo.after hostOps0_2 Wv (Proc.devRef .tc main_arg2) = Wv (Proc.devRef .tc main_arg2) := by
  after_results_simp

set_option maxHeartbeats 2000000 in
theorem s2_arg3 : StableHlo.after hostOps0_2 Wv (Proc.devRef .tc main_arg3) = Wv (Proc.devRef .tc main_arg3) := by
  after_results_simp

set_option maxHeartbeats 2000000 in
theorem s2_arg5 : StableHlo.after hostOps0_2 Wv (Proc.devRef .tc main_arg5) = Wv (Proc.devRef .tc main_arg5) := by
  after_results_simp

set_option maxHeartbeats 2000000 in
theorem s2_arg7 : StableHlo.after hostOps0_2 Wv (Proc.devRef .tc main_arg7) = Wv (Proc.devRef .tc main_arg7) := by
  after_results_simp

set_option maxHeartbeats 2000000 in
theorem s2_arg8 : StableHlo.after hostOps0_2 Wv (Proc.devRef .tc main_arg8) = Wv (Proc.devRef .tc main_arg8) := by
  after_results_simp

/-! ### The stretch between the first and second pallas_calls -/

set_option maxHeartbeats 2000000 in
theorem s3_v59 : StableHlo.after hostOps1 Wv (Proc.devRef .tc main_v59)
    = preOf (Wv (Proc.devRef .tc main_arg1)) (Wv (Proc.devRef .tc main_arg2)) (Wv (Proc.devRef .tc main_v35))
        (Wv (Proc.devRef .tc main_v6)) (Wv (Proc.devRef .tc main_v7)) := by
  after_results_simp
  all_goals rfl

set_option maxHeartbeats 2000000 in
theorem s3_v6 : StableHlo.after hostOps1 Wv (Proc.devRef .tc main_v6) = Wv (Proc.devRef .tc main_v6) := by
  after_results_simp

set_option maxHeartbeats 2000000 in
theorem s3_v7 : StableHlo.after hostOps1 Wv (Proc.devRef .tc main_v7) = Wv (Proc.devRef .tc main_v7) := by
  after_results_simp

set_option maxHeartbeats 2000000 in
theorem s3_arg1 : StableHlo.after hostOps1 Wv (Proc.devRef .tc main_arg1) = Wv (Proc.devRef .tc main_arg1) := by
  after_results_simp

set_option maxHeartbeats 2000000 in
theorem s3_arg2 : StableHlo.after hostOps1 Wv (Proc.devRef .tc main_arg2) = Wv (Proc.devRef .tc main_arg2) := by
  after_results_simp

set_option maxHeartbeats 2000000 in
theorem s3_arg5 : StableHlo.after hostOps1 Wv (Proc.devRef .tc main_arg5) = Wv (Proc.devRef .tc main_arg5) := by
  after_results_simp

set_option maxHeartbeats 2000000 in
theorem s3_arg7 : StableHlo.after hostOps1 Wv (Proc.devRef .tc main_arg7) = Wv (Proc.devRef .tc main_arg7) := by
  after_results_simp

set_option maxHeartbeats 2000000 in
theorem s3_arg8 : StableHlo.after hostOps1 Wv (Proc.devRef .tc main_arg8) = Wv (Proc.devRef .tc main_arg8) := by
  after_results_simp

set_option maxHeartbeats 2000000 in
theorem s3_v9 : StableHlo.after hostOps1 Wv (Proc.devRef .tc main_v9) = Wv (Proc.devRef .tc main_v9) := by
  after_results_simp

set_option maxHeartbeats 2000000 in
theorem s3_v10 : StableHlo.after hostOps1 Wv (Proc.devRef .tc main_v10) = Wv (Proc.devRef .tc main_v10) := by
  after_results_simp

/-! ### The last stretch -/

set_option maxHeartbeats 2000000 in
theorem s4_v88 : StableHlo.after hostOps3 Wv (Proc.devRef .tc main_v88)
    = postOf (Wv (Proc.devRef .tc main_arg1)) (Wv (Proc.devRef .tc main_arg2)) (Wv (Proc.devRef .tc main_arg8))
        (Wv (Proc.devRef .tc main_v61)) (Wv (Proc.devRef .tc main_v6)) (Wv (Proc.devRef .tc main_v7)) := by
  after_results_simp
  all_goals rfl

end Stretches

/-! ## The fold read at the buffers later segments need -/

variable (m : (ℓ : Loc nD τ sig) → Buf (Elt Ideal) ℓ) (ρ : Dev nD → PrngReg) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)

/-- an argument array at the first pallas_call's entry is the launch memory's -/
theorem w1_arg0 : W1 (F := Ideal) m ρ c (Proc.devRef .tc main_arg0) = A0 m c := s0_arg0 (W0 m ρ c)
theorem w2_arg0 : W2 (F := Ideal) m ρ c (Proc.devRef .tc main_arg0) = A0 m c := (s1_arg0 (W1 m ρ c)).trans (w1_arg0 m ρ c)
theorem w1_arg1 : W1 (F := Ideal) m ρ c (Proc.devRef .tc main_arg1) = A1 m c := s0_arg1 (W0 m ρ c)
theorem w2_arg1 : W2 (F := Ideal) m ρ c (Proc.devRef .tc main_arg1) = A1 m c := (s1_arg1 (W1 m ρ c)).trans (w1_arg1 m ρ c)
theorem w1_arg2 : W1 (F := Ideal) m ρ c (Proc.devRef .tc main_arg2) = A2 m c := s0_arg2 (W0 m ρ c)
theorem w2_arg2 : W2 (F := Ideal) m ρ c (Proc.devRef .tc main_arg2) = A2 m c := (s1_arg2 (W1 m ρ c)).trans (w1_arg2 m ρ c)
theorem w1_arg3 : W1 (F := Ideal) m ρ c (Proc.devRef .tc main_arg3) = A3 m c := s0_arg3 (W0 m ρ c)
theorem w2_arg3 : W2 (F := Ideal) m ρ c (Proc.devRef .tc main_arg3) = A3 m c := (s1_arg3 (W1 m ρ c)).trans (w1_arg3 m ρ c)
theorem w1_arg4 : W1 (F := Ideal) m ρ c (Proc.devRef .tc main_arg4) = A4 m c := s0_arg4 (W0 m ρ c)
theorem w2_arg4 : W2 (F := Ideal) m ρ c (Proc.devRef .tc main_arg4) = A4 m c := (s1_arg4 (W1 m ρ c)).trans (w1_arg4 m ρ c)
theorem w1_arg5 : W1 (F := Ideal) m ρ c (Proc.devRef .tc main_arg5) = A5 m c := s0_arg5 (W0 m ρ c)
theorem w2_arg5 : W2 (F := Ideal) m ρ c (Proc.devRef .tc main_arg5) = A5 m c := (s1_arg5 (W1 m ρ c)).trans (w1_arg5 m ρ c)
theorem w1_arg6 : W1 (F := Ideal) m ρ c (Proc.devRef .tc main_arg6) = A6 m c := s0_arg6 (W0 m ρ c)
theorem w2_arg6 : W2 (F := Ideal) m ρ c (Proc.devRef .tc main_arg6) = A6 m c := (s1_arg6 (W1 m ρ c)).trans (w1_arg6 m ρ c)
theorem w1_arg7 : W1 (F := Ideal) m ρ c (Proc.devRef .tc main_arg7) = A7 m c := s0_arg7 (W0 m ρ c)
theorem w2_arg7 : W2 (F := Ideal) m ρ c (Proc.devRef .tc main_arg7) = A7 m c := (s1_arg7 (W1 m ρ c)).trans (w1_arg7 m ρ c)
theorem w1_arg8 : W1 (F := Ideal) m ρ c (Proc.devRef .tc main_arg8) = A8 m c := s0_arg8 (W0 m ρ c)
theorem w2_arg8 : W2 (F := Ideal) m ρ c (Proc.devRef .tc main_arg8) = A8 m c := (s1_arg8 (W1 m ρ c)).trans (w1_arg8 m ρ c)

/-- the clamped in-degrees, after the called clamp -/
theorem w2_v4 : W2 (F := Ideal) m ρ c (Proc.devRef .tc main_v4)
    = clipOf (constant (F := Ideal) S_ .f32 0x3F800000#32) (degOf (A2 m c)) := by
  show StableHlo.after hostOps0_1 (W1 m ρ c) (Proc.devRef .tc main_v4) = _
  rw [s1_v4]
  show clipOf (StableHlo.after hostOps0 (W0 m ρ c) (Proc.devRef .tc main_cst_1)) (StableHlo.after hostOps0 (W0 m ρ c) (Proc.devRef .tc main_v3)) = _
  rw [s0_cst_1, s0_v3]

/-- the buffers no later segment rewrites, at the contents the first stretches give them -/
structure Kept (W : Valuation τ sig (Elt Ideal)) : Prop where
  v6 : W (Proc.devRef .tc main_v6) = ncol (A2 m c)
  v7 : W (Proc.devRef .tc main_v7) = n2col (A2 m c)
  a1 : W (Proc.devRef .tc main_arg1) = A1 m c
  a2 : W (Proc.devRef .tc main_arg2) = A2 m c
  a5 : W (Proc.devRef .tc main_arg5) = A5 m c
  a7 : W (Proc.devRef .tc main_arg7) = A7 m c
  a8 : W (Proc.devRef .tc main_arg8) = A8 m c
  v9 : W (Proc.devRef .tc main_v9) = rowOf (A6 m c)
  v10 : W (Proc.devRef .tc main_v10) = zeroRow40

/-- At the first pallas_call's entry. -/
theorem kept3 : Kept m c (W3 (F := Ideal) m ρ c) where
  v6 := (s2_v6 (W2 m ρ c)).trans (congrArg ncolOf (w2_v4 m ρ c))
  v7 := (s2_v7 (W2 m ρ c)).trans (by rw [w2_v4]; rfl)
  a1 := (s2_arg1 (W2 m ρ c)).trans (w2_arg1 m ρ c)
  a2 := (s2_arg2 (W2 m ρ c)).trans (w2_arg2 m ρ c)
  a5 := (s2_arg5 (W2 m ρ c)).trans (w2_arg5 m ρ c)
  a7 := (s2_arg7 (W2 m ρ c)).trans (w2_arg7 m ρ c)
  a8 := (s2_arg8 (W2 m ρ c)).trans (w2_arg8 m ρ c)
  v9 := (s2_v9 (W2 m ρ c)).trans (congrArg rowOf (w2_arg6 m ρ c))
  v10 := s2_v10 (W2 m ρ c)

theorem v34_3 : W3 (F := Ideal) m ρ c (Proc.devRef .tc main_v34) = pre (A1 m c) (A2 m c) (A0 m c) := by
  show StableHlo.after hostOps0_2 (W2 m ρ c) (Proc.devRef .tc main_v34) = _
  rw [s2_v34, w2_arg1, w2_arg2, w2_arg0, w2_v4]
  rfl

theorem a3_3 : W3 (F := Ideal) m ρ c (Proc.devRef .tc main_arg3) = A3 m c := (s2_arg3 (W2 m ρ c)).trans (w2_arg3 m ρ c)

theorem v8_3 : W3 (F := Ideal) m ρ c (Proc.devRef .tc main_v8) = rowOf (A4 m c) :=
  (s2_v8 (W2 m ρ c)).trans (congrArg rowOf (w2_arg4 m ρ c))

/-- Across the first pallas_call: it rewrites its output array only; its input windows' arrays end as entered. -/
theorem kept4 : Kept m c (W4 (F := Ideal) m ρ c) where
  v6 := ((W4_arr m ρ c 3).trans (((dat0 (V3 m ρ) c).arrAt_in 3 rfl _).trans (A_eq0 (V3 m ρ) c 3))).trans (kept3 m ρ c).v6
  v7 := (W4_of_ne m ρ c main_v7 (by decide)).trans (kept3 m ρ c).v7
  a1 := (W4_of_ne m ρ c main_arg1 (by decide)).trans (kept3 m ρ c).a1
  a2 := (W4_of_ne m ρ c main_arg2 (by decide)).trans (kept3 m ρ c).a2
  a5 := (W4_of_ne m ρ c main_arg5 (by decide)).trans (kept3 m ρ c).a5
  a7 := (W4_of_ne m ρ c main_arg7 (by decide)).trans (kept3 m ρ c).a7
  a8 := (W4_of_ne m ρ c main_arg8 (by decide)).trans (kept3 m ρ c).a8
  v9 := (W4_of_ne m ρ c main_v9 (by decide)).trans (kept3 m ρ c).v9
  v10 := (W4_of_ne m ρ c main_v10 (by decide)).trans (kept3 m ρ c).v10

/-- the first pallas_call's output array after it -/
theorem v35_4 : W4 (F := Ideal) m ρ c (Proc.devRef .tc main_v35) = (dat0 (V3 m ρ) c).arrAt 4 cfg0.N := W4_arr m ρ c 4

/-- Across the stretch between the first and second pallas_calls. -/
theorem kept5 : Kept m c (W5 (F := Ideal) m ρ c) where
  v6 := (s3_v6 (W4 m ρ c)).trans (kept4 m ρ c).v6
  v7 := (s3_v7 (W4 m ρ c)).trans (kept4 m ρ c).v7
  a1 := (s3_arg1 (W4 m ρ c)).trans (kept4 m ρ c).a1
  a2 := (s3_arg2 (W4 m ρ c)).trans (kept4 m ρ c).a2
  a5 := (s3_arg5 (W4 m ρ c)).trans (kept4 m ρ c).a5
  a7 := (s3_arg7 (W4 m ρ c)).trans (kept4 m ρ c).a7
  a8 := (s3_arg8 (W4 m ρ c)).trans (kept4 m ρ c).a8
  v9 := (s3_v9 (W4 m ρ c)).trans (kept4 m ρ c).v9
  v10 := (s3_v10 (W4 m ρ c)).trans (kept4 m ρ c).v10

theorem v59_5 : W5 (F := Ideal) m ρ c (Proc.devRef .tc main_v59)
    = pre (A1 m c) (A2 m c) (W4 (F := Ideal) m ρ c (Proc.devRef .tc main_v35)) := by
  show StableHlo.after hostOps1 (W4 m ρ c) (Proc.devRef .tc main_v59) = _
  rw [s3_v59, (kept4 m ρ c).v6, (kept4 m ρ c).v7, (kept4 m ρ c).a1, (kept4 m ρ c).a2]
  rfl

/-- Across the second pallas_call. -/
theorem kept6 : Kept m c (W6 (F := Ideal) m ρ c) where
  v6 := ((W6_arr m ρ c 3).trans (((dat1 (V5 m ρ) c).arrAt_in 3 rfl _).trans (A_eq1 (V5 m ρ) c 3))).trans (kept5 m ρ c).v6
  a5 := ((W6_arr m ρ c 1).trans (((dat1 (V5 m ρ) c).arrAt_in 1 rfl _).trans (A_eq1 (V5 m ρ) c 1))).trans (kept5 m ρ c).a5
  v9 := ((W6_arr m ρ c 2).trans (((dat1 (V5 m ρ) c).arrAt_in 2 rfl _).trans (A_eq1 (V5 m ρ) c 2))).trans (kept5 m ρ c).v9
  v7 := (W6_of_ne m ρ c main_v7 (by decide)).trans (kept5 m ρ c).v7
  a1 := (W6_of_ne m ρ c main_arg1 (by decide)).trans (kept5 m ρ c).a1
  a2 := (W6_of_ne m ρ c main_arg2 (by decide)).trans (kept5 m ρ c).a2
  a7 := (W6_of_ne m ρ c main_arg7 (by decide)).trans (kept5 m ρ c).a7
  a8 := (W6_of_ne m ρ c main_arg8 (by decide)).trans (kept5 m ρ c).a8
  v10 := (W6_of_ne m ρ c main_v10 (by decide)).trans (kept5 m ρ c).v10

/-- the second pallas_call's output array after it -/
theorem v60_6 : W6 (F := Ideal) m ρ c (Proc.devRef .tc main_v60) = (dat1 (V5 m ρ) c).arrAt 4 cfg1.N := W6_arr m ρ c 4

/-- Across the third pallas_call. -/
theorem kept7 : Kept m c (W7 (F := Ideal) m ρ c) where
  v6 := ((W7_arr m ρ c 3).trans (((dat2 (V6 m ρ) c).arrAt_in 3 rfl _).trans (A_eq2 (V6 m ρ) c 3))).trans (kept6 m ρ c).v6
  a7 := ((W7_arr m ρ c 1).trans (((dat2 (V6 m ρ) c).arrAt_in 1 rfl _).trans (A_eq2 (V6 m ρ) c 1))).trans (kept6 m ρ c).a7
  v10 := ((W7_arr m ρ c 2).trans (((dat2 (V6 m ρ) c).arrAt_in 2 rfl _).trans (A_eq2 (V6 m ρ) c 2))).trans (kept6 m ρ c).v10
  v7 := (W7_of_ne m ρ c main_v7 (by decide)).trans (kept6 m ρ c).v7
  a1 := (W7_of_ne m ρ c main_arg1 (by decide)).trans (kept6 m ρ c).a1
  a2 := (W7_of_ne m ρ c main_arg2 (by decide)).trans (kept6 m ρ c).a2
  a5 := (W7_of_ne m ρ c main_arg5 (by decide)).trans (kept6 m ρ c).a5
  a8 := (W7_of_ne m ρ c main_arg8 (by decide)).trans (kept6 m ρ c).a8
  v9 := (W7_of_ne m ρ c main_v9 (by decide)).trans (kept6 m ρ c).v9

/-- the third pallas_call's output array after it -/
theorem v61_7 : W7 (F := Ideal) m ρ c (Proc.devRef .tc main_v61) = (dat2 (V6 m ρ) c).arrAt 4 cfg2.N := W7_arr m ρ c 4

/-- The result: the last stretch applied to what the third pallas_call leaves. -/
theorem v88_8 : W8 (F := Ideal) m ρ c (Proc.devRef .tc main_v88)
    = post (A1 m c) (A2 m c) (A8 m c) (W7 (F := Ideal) m ρ c (Proc.devRef .tc main_v61)) := by
  show StableHlo.after hostOps3 (W7 m ρ c) (Proc.devRef .tc main_v88) = _
  rw [s4_v88, (kept7 m ρ c).v6, (kept7 m ρ c).v7, (kept7 m ρ c).a1, (kept7 m ρ c).a2, (kept7 m ρ c).a8]
  rfl

end Cert.KernelIdeal.KHost

end
-- ==== Proof.LibGraphConvSpec.lean ====
/-
  A three-layer simplified graph convolution, written once as the kernel arranges it and once as the reference does,
  over the extended reals.  Nodes `ι`, edges `κ`; an edge `e` reads node `ρ e` and lands on the node `v` with
  `e ∈ L v`; `n v` is the per-node scale (the inverse square root of the clamped in-degree).  One hop sums, over the
  edges landing on `v`, the row the edge reads.  A layer is: scale, hop, scale twice, hop, scale, then an affine
  map of the feature axis and a clamp at zero.  The kernel merges the two interior scalings into one by `n·n`, and
  in the last layer applies the weight before the hops and the bias after them.
-/
import Mathlib.Data.EReal.Basic
import Mathlib.Algebra.BigOperators.Group.Finset.Basic

noncomputable section

open scoped BigOperators

namespace Cert.Spec

variable {ι κ α β : Type}

/-- one hop: the sum, over the edges landing on `v`, of the row each edge reads -/
def hop (ρ : κ → ι) (L : ι → Finset κ) (h : ι → α → EReal) : ι → α → EReal := fun v c => ∑ e ∈ L v, h (ρ e) c

/-- every row times its node's scale -/
def scale (h : ι → α → EReal) (n : ι → EReal) : ι → α → EReal := fun v c => h v c * n v

/-- an affine map of the feature axis -/
def lin [Fintype α] (h : ι → α → EReal) (W : α → β → EReal) (b : β → EReal) : ι → β → EReal :=
  fun v q => (∑ k, h v k * W k q) + b q

/-- the clamp at zero -/
def relu (h : ι → α → EReal) : ι → α → EReal := fun v c => max (h v c) 0

/-- one layer as the kernel computes it: the two interior scalings merged into one by `n·n` -/
def layerK [Fintype α] (ρ : κ → ι) (L : ι → Finset κ) (n : ι → EReal) (x : ι → α → EReal) (W : α → β → EReal)
    (b : β → EReal) : ι → β → EReal :=
  relu (lin (scale (hop ρ L (scale (hop ρ L (scale x n)) (fun v => n v * n v))) n) W b)

/-- one layer as the reference computes it -/
def layerR [Fintype α] (ρ : κ → ι) (L : ι → Finset κ) (n : ι → EReal) (x : ι → α → EReal) (W : α → β → EReal)
    (b : β → EReal) : ι → β → EReal :=
  relu (lin (scale (hop ρ L (scale (scale (hop ρ L (scale x n)) n) n)) n) W b)

/-- the last layer as the kernel computes it: the weight first (zero bias), two hops, the bias at the end -/
def lastK [Fintype α] (ρ : κ → ι) (L : ι → Finset κ) (n : ι → EReal) (x : ι → α → EReal) (W : α → β → EReal)
    (b : β → EReal) : ι → β → EReal :=
  fun v q => scale (hop ρ L (scale (hop ρ L (lin (scale x n) W (fun _ => 0))) (fun v => n v * n v))) n v q + b q

/-- the last layer as the reference computes it: two hops, then the weight and the bias -/
def lastR [Fintype α] (ρ : κ → ι) (L : ι → Finset κ) (n : ι → EReal) (x : ι → α → EReal) (W : α → β → EReal)
    (b : β → EReal) : ι → β → EReal :=
  lin (scale (hop ρ L (scale (scale (hop ρ L (scale x n)) n) n)) n) W b

/-- the whole network, the kernel's arrangement -/
def netK [Fintype α] (ρ : κ → ι) (L : ι → Finset κ) (n : ι → EReal) (f : ι → α → EReal)
    (W1 : α → α → EReal) (b1 : α → EReal) (W2 : α → α → EReal) (b2 : α → EReal) (W3 : α → β → EReal) (b3 : β → EReal) :
    ι → β → EReal :=
  lastK ρ L n (layerK ρ L n (layerK ρ L n f W1 b1) W2 b2) W3 b3

/-- the whole network, the reference's arrangement -/
def netR [Fintype α] (ρ : κ → ι) (L : ι → Finset κ) (n : ι → EReal) (f : ι → α → EReal)
    (W1 : α → α → EReal) (b1 : α → EReal) (W2 : α → α → EReal) (b2 : α → EReal) (W3 : α → β → EReal) (b3 : β → EReal) :
    ι → β → EReal :=
  lastR ρ L n (layerR ρ L n (layerR ρ L n f W1 b1) W2 b2) W3 b3

end Cert.Spec

end
-- ==== Proof.LibGatherRows.lean ====
/-
  GATHER OF ROWS, READ AT AN ENTRY.

  A StableHLO gather that takes whole rows of a matrix `x : [N, C]` at a column of start indices
  `idx : [T, 1]` (offset axis 1, collapsed axis 0, start index map `[0]`, index vector on axis 1, slice
  sizes `[1, C]`) has at entry `(e, c)` the value `x[r, c]`, where `r` is the start index `idx[e, 0]` read
  as a signed integer and clamped into `[0, N - 1]` (`gather_rows_apply`).  The same gather of a vector
  `x : [N]` (no offset axis, slice sizes `[1]`) has at entry `e` the value `x[r]` (`gather_vec_apply`).

  Each is proved first for the record written out with these fields (`rowsDims`, `vecDims`) and then
  stated for ANY record of dimension numbers whose fields are the ones above, so that it applies to a
  record however it was written down.
-/
import Idealize.ShloMosaic.Lib.ValueIdx

noncomputable section

namespace Cert.GatherRows

open Idealize.ShloMosaic Idealize.ShloMosaic.ValueIdx

/-- the operand row an edge reads: its start index read signed and clamped into [0, N-1] -/
def rowAt {T w : ℕ} (N : ℕ) (hN : 0 < N) (idx : IVec ⟨2, ![T, 1]⟩ w) (e : Fin T) : Fin N :=
  ⟨min (idx (ix2 e (0 : Fin 1))).toInt.toNat (N - 1), by omega⟩

/-! ## Rows of a matrix -/

/-- The dimension numbers of a gather of rows: operand `[N, C]`, start indices `[T, 1]`, result `[T, C]`. -/
abbrev rowsDims (N C T : ℕ)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

/-- The start-indices entry result entry `(e, c)` reads: `(e, 0)`. -/
theorem rowsDims_siIdx {N C T : ℕ}
    (wf : GatherDims.WF ⟨2, ![N, C]⟩ ⟨2, ![T, 1]⟩ ⟨2, ![T, C]⟩ [1] [0] [] [0] [] 1 ![1, C])
    (e : Fin T) (c : Fin C) :
    (rowsDims N C T wf).siIdx (ix2 e c) ⟨List.idxOf (0 : Fin 2) (rowsDims N C T wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- The gather of rows at the written-out record, read at an entry. -/
theorem gather_rowsDims_apply {α : Type} {N C T w : ℕ} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (e : Fin T) (c : Fin C) :
    Host.gather (rowsDims N C T wf) x idx (ix2 e c) = x (ix2 (rowAt N hN idx e) c) := by
  unfold Host.gather
  congr 1
  funext a
  refine Fin.ext ?_
  match a with
  | ⟨0, _⟩ =>
    -- the row axis: the clamped start, no batching and no offset coordinate
    show (rowsDims N C T wf).start (ix2 e c) idx 0 + (rowsDims N C T wf).batchCoord (ix2 e c) 0
      + (rowsDims N C T wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C T wf).startIndexMap from List.mem_singleton.mpr rfl)]
    rw [rowsDims_siIdx wf e c]
    rfl
  | ⟨1, _⟩ =>
    -- the column axis: start 0, no batching coordinate, the offset coordinate is the result's column
    show (rowsDims N C T wf).start (ix2 e c) idx 1 + (rowsDims N C T wf).batchCoord (ix2 e c) 1
      + (rowsDims N C T wf).offCoord (ix2 e c) 1 = c.val
    rw [GatherDims.batchCoord_eq_zero _ _ _ List.not_mem_nil]
    unfold GatherDims.start
    rw [dif_neg (show (1 : Fin 2) ∉ (rowsDims N C T wf).startIndexMap from
      fun h => Nat.one_ne_zero (congrArg Fin.val (List.mem_singleton.mp h)))]
    simp only [Nat.add_zero, Nat.zero_add]
    rfl

/-- THE GATHER OF ROWS READ AT `(e, c)`: row `rowAt N hN idx e` of the operand, column `c`; for any record
    with these dimension numbers. -/
theorem gather_rows_apply {α : Type} {N C T w : ℕ} (hN : 0 < N)
    (d : GatherDims ⟨2, ![N, C]⟩ ⟨2, ![T, 1]⟩ ⟨2, ![T, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![T, 1]⟩ w) (e : Fin T) (c : Fin C) :
    Host.gather d x idx (ix2 e c) = x (ix2 (rowAt N hN idx e) c) := by
  obtain ⟨od, cd, ob, sb, sm, iv, ss, wf⟩ := d
  simp only at h1 h2 h3 h4 h5 h6 h7
  subst h1 h2 h3 h4 h5 h6 h7
  exact gather_rowsDims_apply hN wf x idx e c

/-! ## Entries of a vector -/

/-- The dimension numbers of the same gather of a vector: operand `[N]`, start indices `[T, 1]`, result `[T]`. -/
abbrev vecDims (N T : ℕ)
    (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- The start-indices entry result entry `e` reads: `(e, 0)`. -/
theorem vecDims_siIdx {N T : ℕ}
    (wf : GatherDims.WF ⟨1, ![N]⟩ ⟨2, ![T, 1]⟩ ⟨1, ![T]⟩ [] [0] [] [0] [] 1 ![1]) (e : Fin T) :
    (vecDims N T wf).siIdx (ix1 e) ⟨List.idxOf (0 : Fin 1) (vecDims N T wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- The gather of a vector at the written-out record, read at an entry. -/
theorem gather_vecDims_apply {α : Type} {N T w : ℕ} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ w) (e : Fin T) :
    Host.gather (vecDims N T wf) x idx (ix1 e) = x (ix1 (rowAt N hN idx e)) := by
  unfold Host.gather
  congr 1
  funext a
  obtain rfl : a = 0 := Subsingleton.elim _ _
  refine Fin.ext ?_
  show (vecDims N T wf).start (ix1 e) idx 0 + (vecDims N T wf).batchCoord (ix1 e) 0
    + (vecDims N T wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N T wf).startIndexMap from List.mem_singleton.mpr rfl)]
  rw [vecDims_siIdx wf e]
  rfl

/-- THE GATHER OF A VECTOR READ AT `e`: entry `rowAt N hN idx e` of the operand; for any record with these
    dimension numbers. -/
theorem gather_vec_apply {α : Type} {N T w : ℕ} (hN : 0 < N)
    (d : GatherDims ⟨1, ![N]⟩ ⟨2, ![T, 1]⟩ ⟨1, ![T]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![T, 1]⟩ w) (e : Fin T) :
    Host.gather d x idx (ix1 e) = x (ix1 (rowAt N hN idx e)) := by
  obtain ⟨od, cd, ob, sb, sm, iv, ss, wf⟩ := d
  simp only at h1 h2 h3 h4 h5 h6 h7
  subst h1 h2 h3 h4 h5 h6 h7
  exact gather_vecDims_apply hN wf x idx e

end Cert.GatherRows

end
-- ==== Proof.LibScatterRows.lean ====
/-
  SCATTER-ADD OF ROWS, READ AT AN ENTRY, AT THE IDEAL INSTANCE.

  A StableHLO scatter with an `add` body that adds whole rows `upd : [T, C]` into a matrix `x : [N, C]` at a
  column of scatter indices `idx : [T, 1]` (update window axis 1, inserted window axis 0, scatter axis to
  operand axis `[0]`, index vector on axis 1) has at entry `(v, c)`, over the extended reals, the value
  `x[v, c] + ∑ upd[e, c]` over the edges `e` whose scatter index `idx[e, 0]`, read as a signed integer and
  NOT clamped, is the row `v` (`scatterAdd_rows_apply`): an index outside `[0, N - 1]` lands nowhere.  The
  same scatter of a vector `upd : [T]` into `x : [N]` (no window axis) has at entry `v` the value
  `x[v] + ∑ upd[e]` over the same edges (`scatterAdd_vec_apply`).

  The route: an update entry lands on an operand entry exactly when on every axis its start plus its window
  coordinate is that entry's coordinate (`resultIdx?_eq_some_iff`); on these dimension numbers that says
  "the scatter index is the row, and the column is the same" (`rowsDims_lands_iff`), so the set of update
  entries landing on `(v, c)` is the image of the landing edges under `e ↦ (e, c)`.

  Each theorem is proved first for the record written out with these fields (`rowsDims`, `vecDims`) and
  then stated for ANY record of dimension numbers with these fields.
-/
import Idealize.ShloMosaic.Lib.ValueIdx
import Idealize.ShloMosaic.PureOps.Ideal

noncomputable section

open scoped BigOperators

namespace Cert.ScatterRows

open Idealize.ShloMosaic Idealize.ShloMosaic.ValueIdx

/-- the edges whose scatter index, read signed and NOT clamped, is the row v -/
def landing {T w : ℕ} (idx : IVec ⟨2, ![T, 1]⟩ w) (v : ℕ) : Finset (Fin T) :=
  Finset.univ.filter fun e => (idx (ix2 e (0 : Fin 1))).toInt = (v : ℤ)

/-! ## Where an update entry lands, for any dimension numbers -/

/-- An update entry `j` lands on the operand entry `i` exactly when, on every operand axis, its start plus its
    window coordinate is `i`'s coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro hs a
    split at hs
    · rename_i h
      have h' := congrArg (fun f => ((f a).val : ℕ)) (Option.some.inj hs)
      simp only at h'
      have := (h a).1
      omega
    · exact absurd hs (by simp)
  · intro hi
    have h : ∀ a, 0 ≤ d.start j idx a + (d.window j a : ℤ) ∧ d.start j idx a + (d.window j a : ℤ) < s.size a := by
      intro a
      have h1 := hi a
      have h2 := (i a).isLt
      constructor <;> omega
    rw [dif_pos h]
    congr 1
    funext a
    refine Fin.ext ?_
    have h1 := hi a
    show (d.start j idx a + (d.window j a : ℤ)).toNat = (i a).val
    omega

/-! ## Rows of a matrix -/

/-- The dimension numbers of a scatter of rows: operand `[N, C]`, scatter indices `[T, 1]`, updates `[T, C]`. -/
abbrev rowsDims (N C T : ℕ) (wf : ScatterDims.WF ⟨2, ![N, C]⟩ ⟨2, ![T, 1]⟩ ⟨2, ![T, C]⟩ [1] [0] [0] 1) :
    ScatterDims ⟨2, ![N, C]⟩ ⟨2, ![T, 1]⟩ ⟨2, ![T, C]⟩ where
  updateWindowDims := [1]
  insertedWindowDims := [0]
  scatterDimsToOperandDims := [0]
  indexVectorDim := 1
  wf := wf

section Rows
variable {N C T w : ℕ} (wf : ScatterDims.WF ⟨2, ![N, C]⟩ ⟨2, ![T, 1]⟩ ⟨2, ![T, C]⟩ [1] [0] [0] 1)

/-- The scatter-indices entry update entry `(e, c')` reads: `(e, 0)`. -/
theorem rowsDims_siIdx (e : Fin T) (c' : Fin C) :
    (rowsDims N C T wf).siIdx (ix2 e c') ⟨List.idxOf (0 : Fin 2) (rowsDims N C T wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

/-- On the row axis the start is the scatter index read signed … -/
theorem rowsDims_start0 (idx : IVec ⟨2, ![T, 1]⟩ w) (e : Fin T) (c' : Fin C) :
    (rowsDims N C T wf).start (ix2 e c') idx 0 = (idx (ix2 e (0 : Fin 1))).toInt := by
  unfold ScatterDims.start
  rw [dif_pos (show (0 : Fin 2) ∈ (rowsDims N C T wf).scatterDimsToOperandDims from List.mem_singleton.mpr rfl)]
  rw [rowsDims_siIdx wf e c']

/-- … and on the column axis it is `0`. -/
theorem rowsDims_start1 (idx : IVec ⟨2, ![T, 1]⟩ w) (e : Fin T) (c' : Fin C) :
    (rowsDims N C T wf).start (ix2 e c') idx 1 = 0 := by
  unfold ScatterDims.start
  rw [dif_neg (show (1 : Fin 2) ∉ (rowsDims N C T wf).scatterDimsToOperandDims from
    fun h => Nat.one_ne_zero (congrArg Fin.val (List.mem_singleton.mp h)))]

/-- The window coordinate is `0` on the row axis (an inserted axis) … -/
theorem rowsDims_window0 (e : Fin T) (c' : Fin C) : (rowsDims N C T wf).window (ix2 e c') 0 = 0 := rfl

/-- … and the update's column on the column axis. -/
theorem rowsDims_window1 (e : Fin T) (c' : Fin C) : (rowsDims N C T wf).window (ix2 e c') 1 = c'.val := rfl

/-- Update entry `(e, c')` lands on operand entry `(v, c)` exactly when the scatter index of `e`, read signed, is
    `v` and the columns agree. -/
theorem rowsDims_lands_iff (idx : IVec ⟨2, ![T, 1]⟩ w) (e : Fin T) (c' : Fin C) (v : Fin N) (c : Fin C) :
    (rowsDims N C T wf).resultIdx? (ix2 e c') idx = some (ix2 v c)
      ↔ (idx (ix2 e (0 : Fin 1))).toInt = (v.val : ℤ) ∧ c' = c := by
  rw [resultIdx?_eq_some_iff]
  constructor
  · intro h
    have h0 := h 0
    have h1 := h 1
    rw [rowsDims_start0, rowsDims_window0] at h0
    rw [rowsDims_start1, rowsDims_window1] at h1
    refine ⟨?_, Fin.ext ?_⟩
    · have : (((ix2 v c : (⟨2, ![N, C]⟩ : Shape).Idx) 0).val : ℤ) = (v.val : ℤ) := rfl
      omega
    · have : (((ix2 v c : (⟨2, ![N, C]⟩ : Shape).Idx) 1).val : ℤ) = (c.val : ℤ) := rfl
      omega
  · rintro ⟨h0, rfl⟩ a
    match a with
    | ⟨0, _⟩ =>
      show (rowsDims N C T wf).start (ix2 e c') idx 0 + ((rowsDims N C T wf).window (ix2 e c') 0 : ℤ) = (v.val : ℤ)
      rw [rowsDims_start0, rowsDims_window0, h0]; simp
    | ⟨1, _⟩ =>
      show (rowsDims N C T wf).start (ix2 e c') idx 1 + ((rowsDims N C T wf).window (ix2 e c') 1 : ℤ) = (c'.val : ℤ)
      rw [rowsDims_start1, rowsDims_window1]; simp

/-- The update entries landing on `(v, c)` are the entries `(e, c)` of the landing edges `e`. -/
theorem rowsDims_filter_eq (idx : IVec ⟨2, ![T, 1]⟩ w) (v : Fin N) (c : Fin C) :
    (Finset.univ.filter fun j => (rowsDims N C T wf).resultIdx? j idx = some (ix2 v c))
      = (landing idx v.val).map ⟨fun e => (ix2 e c : (⟨2, ![T, C]⟩ : Shape).Idx),
          fun e e' h => congrFun h 0⟩ := by
  ext j
  obtain ⟨e, c', rfl⟩ : ∃ e c', j = ix2 e c' := ⟨j 0, j 1, eq_ix2 j⟩
  simp only [Finset.mem_filter, Finset.mem_univ, true_and, Finset.mem_map, Function.Embedding.coeFn_mk, landing]
  rw [rowsDims_lands_iff]
  constructor
  · rintro ⟨h, rfl⟩
    exact ⟨e, h, rfl⟩
  · rintro ⟨e', h, he⟩
    have h0 : e' = e := congrFun he 0
    have h1 : c = c' := congrFun he 1
    subst h0 h1
    exact ⟨h, rfl⟩

/-- The scatter-add of rows at the written-out record, read at an entry. -/
theorem scatterAdd_rowsDims_apply {φ : FTy} (x : FVec Ideal ⟨2, ![N, C]⟩ φ) (idx : IVec ⟨2, ![T, 1]⟩ w)
    (upd : FVec Ideal ⟨2, ![T, C]⟩ φ) (v : Fin N) (c : Fin C) :
    Host.scatterAdd (rowsDims N C T wf) x idx upd (ix2 v c) = x (ix2 v c) + ∑ e ∈ landing idx v.val, upd (ix2 e c) := by
  show Ideal.hostScatterAdd (rowsDims N C T wf) x idx upd (ix2 v c) = _
  unfold Ideal.hostScatterAdd
  rw [rowsDims_filter_eq wf idx v c, Finset.sum_map]
  rfl

end Rows

/-- THE SCATTER-ADD OF ROWS READ AT `(v, c)`: the operand's entry plus the updates' column-`c` entries over the edges
    landing on row `v`; for any record with these dimension numbers. -/
theorem scatterAdd_rows_apply {N C T w : ℕ} {φ : FTy} (d : ScatterDims ⟨2, ![N, C]⟩ ⟨2, ![T, 1]⟩ ⟨2, ![T, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![T, 1]⟩ w) (upd : FVec Ideal ⟨2, ![T, C]⟩ φ)
    (v : Fin N) (c : Fin C) :
    Host.scatterAdd d x idx upd (ix2 v c) = x (ix2 v c) + ∑ e ∈ landing idx v.val, upd (ix2 e c) := by
  obtain ⟨uw, iw, sd, iv, wf⟩ := d
  simp only at h1 h2 h3 h4
  subst h1 h2 h3 h4
  exact scatterAdd_rowsDims_apply wf x idx upd v c

/-! ## Entries of a vector -/

/-- The dimension numbers of the same scatter of a vector: operand `[N]`, scatter indices `[T, 1]`, updates `[T]`. -/
abbrev vecDims (N T : ℕ) (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section Vec
variable {N T w : ℕ} (wf : ScatterDims.WF ⟨1, ![N]⟩ ⟨2, ![T, 1]⟩ ⟨1, ![T]⟩ [] [0] [0] 1)

/-- The scatter-indices entry update entry `e` reads: `(e, 0)`. -/
theorem vecDims_siIdx (e : Fin T) :
    (vecDims N T wf).siIdx (ix1 e) ⟨List.idxOf (0 : Fin 1) (vecDims N T wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

/-- On the one operand axis the start is the scatter index read signed … -/
theorem vecDims_start0 (idx : IVec ⟨2, ![T, 1]⟩ w) (e : Fin T) :
    (vecDims N T wf).start (ix1 e) idx 0 = (idx (ix2 e (0 : Fin 1))).toInt := by
  unfold ScatterDims.start
  rw [dif_pos (show (0 : Fin 1) ∈ (vecDims N T wf).scatterDimsToOperandDims from List.mem_singleton.mpr rfl)]
  rw [vecDims_siIdx wf e]

/-- … and the window coordinate is `0` (an inserted axis). -/
theorem vecDims_window0 (e : Fin T) : (vecDims N T wf).window (ix1 e) 0 = 0 := rfl

/-- Update entry `e` lands on operand entry `v` exactly when its scatter index, read signed, is `v`. -/
theorem vecDims_lands_iff (idx : IVec ⟨2, ![T, 1]⟩ w) (e : Fin T) (v : Fin N) :
    (vecDims N T wf).resultIdx? (ix1 e) idx = some (ix1 v) ↔ (idx (ix2 e (0 : Fin 1))).toInt = (v.val : ℤ) := by
  rw [resultIdx?_eq_some_iff]
  constructor
  · intro h
    have h0 := h 0
    rw [vecDims_start0, vecDims_window0] at h0
    have : (((ix1 v : (⟨1, ![N]⟩ : Shape).Idx) 0).val : ℤ) = (v.val : ℤ) := rfl
    omega
  · intro h0 a
    obtain rfl : a = 0 := Subsingleton.elim _ _
    show (vecDims N T wf).start (ix1 e) idx 0 + ((vecDims N T wf).window (ix1 e) 0 : ℤ) = (v.val : ℤ)
    rw [vecDims_start0, vecDims_window0, h0]; simp

/-- The update entries landing on `v` are the landing edges. -/
theorem vecDims_filter_eq (idx : IVec ⟨2, ![T, 1]⟩ w) (v : Fin N) :
    (Finset.univ.filter fun j => (vecDims N T wf).resultIdx? j idx = some (ix1 v))
      = (landing idx v.val).map ⟨fun e => (ix1 e : (⟨1, ![T]⟩ : Shape).Idx), fun e e' h => congrFun h 0⟩ := by
  ext j
  obtain ⟨e, rfl⟩ : ∃ e, j = ix1 e := ⟨j 0, eq_ix1 j⟩
  simp only [Finset.mem_filter, Finset.mem_univ, true_and, Finset.mem_map, Function.Embedding.coeFn_mk, landing]
  rw [vecDims_lands_iff]
  constructor
  · intro h
    exact ⟨e, h, rfl⟩
  · rintro ⟨e', h, he⟩
    have h0 : e' = e := congrFun he 0
    subst h0
    exact h

/-- The scatter-add of a vector at the written-out record, read at an entry. -/
theorem scatterAdd_vecDims_apply {φ : FTy} (x : FVec Ideal ⟨1, ![N]⟩ φ) (idx : IVec ⟨2, ![T, 1]⟩ w)
    (upd : FVec Ideal ⟨1, ![T]⟩ φ) (v : Fin N) :
    Host.scatterAdd (vecDims N T wf) x idx upd (ix1 v) = x (ix1 v) + ∑ e ∈ landing idx v.val, upd (ix1 e) := by
  show Ideal.hostScatterAdd (vecDims N T wf) x idx upd (ix1 v) = _
  unfold Ideal.hostScatterAdd
  rw [vecDims_filter_eq wf idx v, Finset.sum_map]
  rfl

end Vec

/-- THE SCATTER-ADD OF A VECTOR READ AT `v`: the operand's entry plus the updates over the edges landing on `v`; for
    any record with these dimension numbers. -/
theorem scatterAdd_vec_apply {N T w : ℕ} {φ : FTy} (d : ScatterDims ⟨1, ![N]⟩ ⟨2, ![T, 1]⟩ ⟨1, ![T]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![T, 1]⟩ w) (upd : FVec Ideal ⟨1, ![T]⟩ φ) (v : Fin N) :
    Host.scatterAdd d x idx upd (ix1 v) = x (ix1 v) + ∑ e ∈ landing idx v.val, upd (ix1 e) := by
  obtain ⟨uw, iw, sd, iv, wf⟩ := d
  simp only at h1 h2 h3 h4
  subst h1 h2 h3 h4
  exact scatterAdd_vecDims_apply wf x idx upd v

end Cert.ScatterRows

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«128273_j63677185130847_2_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.LibERealSum.lean ====
/-
  The coercion of the reals into the extended reals commutes with finite sums.
-/
import Mathlib.Data.EReal.Basic
import Mathlib.Algebra.BigOperators.Group.Finset.Basic

open scoped BigOperators

namespace Cert.ERealSum

/-- A finite sum of reals, coerced, is the sum of the coerced terms. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.ERealSum
-- ==== Proof.LibGraphConvRead.lean ====
/-
  Whole-array host operations of a graph convolution read row by column.  A matrix `X` of shape [N, C] is read as
  the function `cur X v c = X (v, c)`; each lemma pushes `cur` through one operation shape:
  a gather of the rows the edges read followed by a scatter-add into zeros at the rows the edges land on is one hop;
  a product with a column spread along the rows is a row scaling; a matrix product plus a row spread down the rows
  is an affine map of the feature axis; a maximum with zeros is the clamp.  The per-node scale itself, the inverse
  square root of the in-degree clamped below at one, is a real number at every node: the in-degree is a count.
-/
import proofs.«128273_j63677185130847_2_alg».proof.Proof.LibGraphConvSpec
import proofs.«128273_j63677185130847_2_alg».proof.Proof.LibGatherRows
import proofs.«128273_j63677185130847_2_alg».proof.Proof.LibScatterRows
import proofs.«128273_j63677185130847_2_alg».proof.Proof.LibHostBroadcasts
import proofs.«128273_j63677185130847_2_alg».proof.Proof.LibBroadcastRows
import proofs.«128273_j63677185130847_2_alg».proof.Proof.LibDotNN
import proofs.«128273_j63677185130847_2_alg».proof.Proof.LibERealSum
import Idealize.ShloMosaic.PureOps.Ideal
import Idealize.ShloMosaic.PureOps.Ideal.Laws
import Idealize.ShloMosaic.Lib.IdealHost
import Idealize.ShloMosaic.Lib.ValueIdx
import Idealize.ShloMosaic.Lib.Pipeline.Value

noncomputable section

open scoped BigOperators

namespace Cert.HostRead

open Idealize.ShloMosaic Idealize.ShloMosaic.ValueIdx Cert.Spec Cert.GatherRows Cert.ScatterRows

/-- a matrix read by row and column -/
def cur {N C : ℕ} (X : (⟨2, ![N, C]⟩ : Shape).Idx → EReal) : Fin N → Fin C → EReal := fun v c => X (ix2 v c)

/-- a vector read by position -/
def cur1 {N : ℕ} (X : (⟨1, ![N]⟩ : Shape).Idx → EReal) : Fin N → EReal := fun v => X (ix1 v)

theorem cur_apply {N C : ℕ} (X : (⟨2, ![N, C]⟩ : Shape).Idx → EReal) (v : Fin N) (c : Fin C) : cur X v c = X (ix2 v c) := rfl

/-- the zero pattern spread over any shape is zero everywhere -/
theorem zeros_apply {t : Shape} (dims : Fin 0 → Fin t.rank) (h : (⟨0, ![]⟩ : Shape).BroadcastsInDim t dims) (j : t.Idx) :
    (broadcastInDim t dims h (constant (F := Ideal) ⟨0, ![]⟩ .f32 0x00000000#32) : t.Idx → EReal) j = 0 := by
  rw [Cert.HostBroadcasts.scalar_apply, constant_apply, Ideal.ofBits_zero_f32]

/-- ONE HOP: gather the rows the edges read, scatter-add them into zeros at the rows the edges land on. -/
theorem cur_hop {N C T w : ℕ} (hN : 0 < N)
    (d : ScatterDims ⟨2, ![N, C]⟩ ⟨2, ![T, 1]⟩ ⟨2, ![T, C]⟩)
    (h1 : d.updateWindowDims = [1]) (h2 : d.insertedWindowDims = [0]) (h3 : d.scatterDimsToOperandDims = [0])
    (h4 : d.indexVectorDim = 1)
    (g : GatherDims ⟨2, ![N, C]⟩ ⟨2, ![T, 1]⟩ ⟨2, ![T, C]⟩)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (Z : FVec Ideal ⟨2, ![N, C]⟩ .f32) (hZ : ∀ i, Z i = 0) (dcol scol : IVec ⟨2, ![T, 1]⟩ w)
    (h : FVec Ideal ⟨2, ![N, C]⟩ .f32) :
    cur (Host.scatterAdd d Z dcol (Host.gather g h scol))
      = hop (rowAt N hN scol) (fun v => landing dcol v.val) (cur h) := by
  funext v c
  show Host.scatterAdd d Z dcol (Host.gather g h scol) (ix2 v c) = ∑ e ∈ landing dcol v.val, h (ix2 (rowAt N hN scol e) c)
  rw [scatterAdd_rows_apply d h1 h2 h3 h4, hZ, zero_add]
  exact Finset.sum_congr rfl fun e _ => gather_rows_apply hN g k1 k2 k3 k4 k5 k6 k7 h scol e c

/-- A product with a column spread along the rows scales every row by its node's entry of the column. -/
theorem cur_scale {N C : ℕ} (h : FVec Ideal ⟨2, ![N, C]⟩ .f32) (col : (⟨2, ![N, 1]⟩ : Shape).Idx → EReal)
    (hb : (⟨2, ![N, 1]⟩ : Shape).BroadcastsInDim ⟨2, ![N, C]⟩ ![0, 1]) :
    cur (mulf h (broadcastInDim ⟨2, ![N, C]⟩ ![0, 1] hb col)) = scale (cur h) (fun v => col (ix2 v (0 : Fin 1))) := by
  funext v c
  show mulf h (broadcastInDim ⟨2, ![N, C]⟩ ![0, 1] hb col) (ix2 v c) = h (ix2 v c) * col (ix2 v (0 : Fin 1))
  rw [mulf_apply, Cert.HostBroadcasts.col_rows_apply]

/-- A matrix product plus a vector spread down the rows is the affine map of the feature axis. -/
theorem cur_lin {N K C : ℕ} (D : DotDims ⟨2, ![N, K]⟩ ⟨2, ![K, C]⟩ ⟨2, ![N, C]⟩) (hD : D = DotDims.plain N K C)
    (prec : Option ContractPrecision) (h : FVec Ideal ⟨2, ![N, K]⟩ .f32) (W : FVec Ideal ⟨2, ![K, C]⟩ .f32)
    (b : (⟨1, ![C]⟩ : Shape).Idx → EReal)
    (hu : (⟨1, ![C]⟩ : Shape).BroadcastsInDim ⟨2, ![1, C]⟩ ![1])
    (hr : (⟨2, ![1, C]⟩ : Shape).BroadcastsInDim ⟨2, ![N, C]⟩ ![0, 1]) :
    cur (addf (Host.dotGeneral D prec h W)
          (broadcastInDim ⟨2, ![N, C]⟩ ![0, 1] hr (broadcastInDim ⟨2, ![1, C]⟩ ![1] hu b)))
      = lin (cur h) (cur W) (cur1 b) := by
  funext v q
  show addf (Host.dotGeneral D prec h W) _ (ix2 v q) = (∑ k, h (ix2 v k) * W (ix2 k q)) + b (ix1 q)
  rw [addf_apply, Cert.DotNN.dotGeneral_apply D hD, Cert.BroadcastRows.row_apply, Cert.BroadcastRows.unit_apply]

/-- A vector spread down the rows and added: the bias of the last layer. -/
theorem cur_add_bias {N C : ℕ} (h : FVec Ideal ⟨2, ![N, C]⟩ .f32) (b : (⟨1, ![C]⟩ : Shape).Idx → EReal)
    (hu : (⟨1, ![C]⟩ : Shape).BroadcastsInDim ⟨2, ![1, C]⟩ ![1])
    (hr : (⟨2, ![1, C]⟩ : Shape).BroadcastsInDim ⟨2, ![N, C]⟩ ![0, 1]) :
    cur (addf h (broadcastInDim ⟨2, ![N, C]⟩ ![0, 1] hr (broadcastInDim ⟨2, ![1, C]⟩ ![1] hu b)))
      = fun v q => cur h v q + cur1 b q := by
  funext v q
  show addf h _ (ix2 v q) = h (ix2 v q) + b (ix1 q)
  rw [addf_apply, Cert.BroadcastRows.row_apply, Cert.BroadcastRows.unit_apply]

/-- The maximum with an all-zero array is the clamp at zero. -/
theorem cur_relu {N C : ℕ} (h Z : FVec Ideal ⟨2, ![N, C]⟩ .f32) (hZ : ∀ i, Z i = 0) :
    cur (maximumf h Z) = relu (cur h) := by
  funext v c
  show maximumf h Z (ix2 v c) = max (h (ix2 v c)) 0
  rw [maximumf_apply, hZ]

/-! ## The per-node scale is a real number -/

/-- A sum of ones over a finite set of edges is their number. -/
theorem sum_ones {κ : Type} (S : Finset κ) : (∑ _e ∈ S, (1 : EReal)) = ((S.card : ℝ) : EReal) := by
  have h : ((∑ _e ∈ S, (1 : ℝ) : ℝ) : EReal) = ∑ _e ∈ S, ((1 : ℝ) : EReal) := Cert.ERealSum.coe_sum S fun _ => 1
  rw [show (1 : EReal) = ((1 : ℝ) : EReal) from rfl, ← h]
  simp

/-- The inverse square root of a count clamped below at one is a real number. -/
theorem rsqrt_clip_real {κ : Type} (S : Finset κ) :
    ∃ r : ℝ, Ideal.rsqrt (max (1 : EReal) (0 + ∑ _e ∈ S, (1 : EReal))) = (r : EReal) := by
  have hmax : max ((1 : ℝ) : EReal) ((S.card : ℝ) : EReal) = ((max 1 (S.card : ℝ) : ℝ) : EReal) :=
    (EReal.coe_strictMono.monotone.map_max).symm
  rw [zero_add, sum_ones, show (1 : EReal) = ((1 : ℝ) : EReal) from rfl, hmax]
  have hpos : (0 : ℝ) < max 1 (S.card : ℝ) := lt_of_lt_of_le one_pos (le_max_left _ _)
  refine ⟨(Real.sqrt (max 1 (S.card : ℝ)))⁻¹, ?_⟩
  rw [Ideal.rsqrt_coe, if_neg (not_lt.mpr hpos.le), if_neg hpos.ne']

end Cert.HostRead

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.Body.lean ====
/-
  The kernel body's arithmetic, read at one entry of the output block.

  Each of the three row-block bodies loads a block x of 5000 rows by 128 features, a weight matrix w, a bias row b and a
  column n of one scale per row, and stores

      relu?( (x ⊙ n) · w + b )

  where (x ⊙ n)[p, k] = x[p, k] · n[p, 0], the matrix product contracts the 128 features, the bias row is repeated down
  the rows, and the first two bodies clamp at zero from below. Over the extended reals the narrowing of the product's
  operands is the identity, so at entry (p, q)

      out[p, q] = max ( Σ_{k < 128} (x[p, k] · n[p, 0]) · w[k, q] + b[0, q] ) 0      (bodies 0 and 1)
      out[p, q] =       Σ_{k < 128} (x[p, k] · n[p, 0]) · w[k, q] + b[0, q]          (body 2, 40 output columns).
-/
import proofs.«128273_j63677185130847_2_alg».proof.Proof.Gen.KernelIdeal.Skeleton
import proofs.«128273_j63677185130847_2_alg».proof.Proof.LibMatmulNN
import proofs.«128273_j63677185130847_2_alg».proof.Proof.LibKeepdimsColumn
import Idealize.ShloMosaic.Lib.ValueLayout
import Idealize.ShloMosaic.PureOps.Ideal.Laws

noncomputable section

namespace Cert.KernelIdeal.Body

open Cert.KernelIdeal Idealize.ShloMosaic Idealize.ShloMosaic.ValueIdx

/-- The scaled block at (p, k): the row's scale times the entry. -/
theorem scaled_apply (x : FVec Ideal S5000x128 .f32) (n : FVec Ideal S5000x1 .f32) (p : Fin 5000) (k : Fin 128) :
    (truncf .bf16 (mulf (shapeCast S5000x128 x Gen.shapeCasts_S5000x128_S5000x128)
        (broadcastTo S5000x128 (shapeCast S5000x1 n Gen.shapeCasts_S5000x1_S5000x1) Gen.broadcasts_S5000x1_S5000x128))
      Gen.bitsLt_bf16_f32 : FVec Ideal S5000x128 .bf16) (ix2 p k) = x (ix2 p k) * n (ix2 p (0 : Fin 1)) := by
  show (shapeCast S5000x128 x Gen.shapeCasts_S5000x128_S5000x128) (ix2 p k)
      * broadcastTo S5000x128 (shapeCast S5000x1 n Gen.shapeCasts_S5000x1_S5000x1) Gen.broadcasts_S5000x1_S5000x128 (ix2 p k) = _
  rw [shapeCast_self, shapeCast_self]
  exact congrArg (x (ix2 p k) * ·) (Cert.KeepdimsColumn.broadcastTo_a1_ab_apply (a := 5000) (b := 128) n _ p k)

/-- Bodies 0 and 1 at (p, q): the scaled row against column q of the weights, plus the bias, clamped at zero. -/
theorem relu_apply (x : Vec Ideal S5000x128 .f32) (n : Vec Ideal S5000x1 .f32) (w : Vec Ideal S128x128 .f32)
    (b : Vec Ideal S1x128 .f32) (p : Fin 5000) (q : Fin 128) :
    Gen.k0_pay1 x n w b (ix2 p q)
      = max ((∑ k : Fin 128, (x (ix2 p k) * n (ix2 p (0 : Fin 1))) * w (ix2 k q)) + b (ix2 (0 : Fin 1) q)) 0 := by
  unfold Gen.k0_pay1
  refine (maximumf_apply _ _ _).trans ?_
  refine congrArg₂ max ((addf_apply _ _ _).trans (congrArg₂ (· + ·) ?_ ?_)) ?_
  · refine (Cert.MatmulNN.matmul_zero_apply (M := 5000) (K := 128) (N := 128)
      dot_S5000x128_S128x128_S5000x128_1_0_0_1_n_n rfl none _ _ p q).trans ?_
    exact Finset.sum_congr rfl fun k _ => congrArg (· * w (ix2 k q)) (scaled_apply x n p k)
  · refine (broadcastTo_1b_ab_apply (a := 5000) (b := 128) _ _ p q).trans ?_
    exact congrFun (shapeCast_self b _) _
  · exact Ideal.ofBits_zero_f32

/-- Body 1 is the same arithmetic as body 0. -/
theorem relu_apply₁ (x : Vec Ideal S5000x128 .f32) (n : Vec Ideal S5000x1 .f32) (w : Vec Ideal S128x128 .f32)
    (b : Vec Ideal S1x128 .f32) (p : Fin 5000) (q : Fin 128) :
    Gen.k1_pay1 x n w b (ix2 p q)
      = max ((∑ k : Fin 128, (x (ix2 p k) * n (ix2 p (0 : Fin 1))) * w (ix2 k q)) + b (ix2 (0 : Fin 1) q)) 0 :=
  relu_apply x n w b p q

/-- Body 2 at (p, q): the scaled row against column q of the 40-column weights, plus the bias; no clamp. -/
theorem affine_apply (x : Vec Ideal S5000x128 .f32) (n : Vec Ideal S5000x1 .f32) (w : Vec Ideal S128x40 .f32)
    (b : Vec Ideal S1x40 .f32) (p : Fin 5000) (q : Fin 40) :
    Gen.k2_pay1 x n w b (ix2 p q)
      = (∑ k : Fin 128, (x (ix2 p k) * n (ix2 p (0 : Fin 1))) * w (ix2 k q)) + b (ix2 (0 : Fin 1) q) := by
  unfold Gen.k2_pay1
  refine (addf_apply _ _ _).trans (congrArg₂ (· + ·) ?_ ?_)
  · refine (Cert.MatmulNN.matmul_zero_apply (M := 5000) (K := 128) (N := 40)
      dot_S5000x128_S128x40_S5000x40_1_0_0_1_n_n rfl none _ _ p q).trans ?_
    exact Finset.sum_congr rfl fun k _ => congrArg (· * w (ix2 k q)) (scaled_apply x n p k)
  · refine (broadcastTo_1b_ab_apply (a := 5000) (b := 40) _ _ p q).trans ?_
    exact congrFun (shapeCast_self b _) _

end Cert.KernelIdeal.Body

end
-- ==== Proof.Region0.lean ====
/-
  Region 0: what the first row-blocked layer leaves in its output array, as one function of its four input arrays.

  The grid has 20 points; point t stages rows 5000 t … 5000 t + 4999 of the feature array X and of the per-row scale
  column N, the whole weight matrix W and the whole bias row B, and writes back rows 5000 t … 5000 t + 4999 of the
  output. The 20 row blocks tile the 100000 rows, so after the last point the output array holds, at (r, q),

      max ( Σ_{k < 128} (X[r, k] · N[r, 0]) · W[k, q] + B[0, q] ) 0

  whatever it held before.
-/
import proofs.«128273_j63677185130847_2_alg».proof.Proof.Gen.KernelIdeal.Frame
import proofs.«128273_j63677185130847_2_alg».proof.Proof.Body
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's four input arrays as it finds them: features, weights, bias row, per-row scale column. -/
abbrev features (c : Dev nD) : S100000x128.Idx → EReal := V c (Pipeline.arrRef spec0 0)
abbrev weights (c : Dev nD) : S128x128.Idx → EReal := V c (Pipeline.arrRef spec0 1)
abbrev bias (c : Dev nD) : S1x128.Idx → EReal := V c (Pipeline.arrRef spec0 2)
abbrev scale (c : Dev nD) : S100000x1.Idx → EReal := V c (Pipeline.arrRef spec0 3)

/-- The layer at row r and column q, of the four arrays. -/
def layer (X : S100000x128.Idx → EReal) (W : S128x128.Idx → EReal) (B : S1x128.Idx → EReal) (Nn : S100000x1.Idx → EReal)
    (r : Fin 100000) (q : Fin 128) : EReal :=
  max ((∑ k : Fin 128, (X (ix2 r k) * Nn (ix2 r (0 : Fin 1))) * W (ix2 k q)) + B (ix2 (0 : Fin 1) q)) 0

/-- The whole output array: the layer at every entry. -/
def result (X : S100000x128.Idx → EReal) (W : S128x128.Idx → EReal) (B : S1x128.Idx → EReal) (Nn : S100000x1.Idx → EReal) :
    S100000x128.Idx → EReal :=
  fun i => layer X W B Nn (i 0) (i 1)

/-- Where each window's block sits at grid point t: the row-blocked windows at block row t, the weights and the bias at
    their one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Entry (p, k) of the feature block at point t is entry (5000 t + p, k) of the feature array. -/
theorem features_block (c : Dev nD) (t : Fin cfg0.N) (p : Fin 5000) (k : Fin 128) (r : Fin 100000)
    (hr : r.val = t.val * 5000 + p.val) :
    (iblk0 V c 0 t : Vec Ideal S5000x128 .f32) (ix2 p k)
      = (V c (Pipeline.arrRef spec0 0) : S100000x128.Idx → EReal) (ix2 r k) := by
  obtain ⟨e0, e1, -⟩ := block_index t
  show (V c (Pipeline.arrRef spec0 0) : S100000x128.Idx → EReal) (((cfg0.win 0).blk t).view.emb (ix2 p k)) = _
  congr 1
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- Entry (p, 0) of the scale block at point t is entry (5000 t + p, 0) of the scale column. -/
theorem scale_block (c : Dev nD) (t : Fin cfg0.N) (p : Fin 5000) (r : Fin 100000)
    (hr : r.val = t.val * 5000 + p.val) :
    (iblk0 V c 3 t : Vec Ideal S5000x1 .f32) (ix2 p (0 : Fin 1))
      = (V c (Pipeline.arrRef spec0 3) : S100000x1.Idx → EReal) (ix2 r (0 : Fin 1)) := by
  obtain ⟨-, -, -, -, -, -, e0, e1, -⟩ := block_index t
  show (V c (Pipeline.arrRef spec0 3) : S100000x1.Idx → EReal) (((cfg0.win 3).blk t).view.emb (ix2 p (0 : Fin 1))) = _
  congr 1
  funext a; apply Fin.ext
  match a with
  | ⟨0, _⟩ => show win0_3.index t (0 : Fin 2) * 5000 + 1 * p.val = r.val; omega
  | ⟨1, _⟩ => show win0_3.index t (1 : Fin 2) * 1 + 1 * 0 = 0; omega

/-- The weight block at any point is the weight matrix. -/
theorem weights_block (c : Dev nD) (t : Fin cfg0.N) (k : Fin 128) (q : Fin 128) :
    (iblk0 V c 1 t : Vec Ideal S128x128 .f32) (ix2 k q)
      = (V c (Pipeline.arrRef spec0 1) : S128x128.Idx → EReal) (ix2 k q) := by
  obtain ⟨-, -, e0, e1, -⟩ := block_index t
  show (V c (Pipeline.arrRef spec0 1) : S128x128.Idx → EReal) (((cfg0.win 1).blk t).view.emb (ix2 k q)) = _
  congr 1
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The bias block at any point is the bias row. -/
theorem bias_block (c : Dev nD) (t : Fin cfg0.N) (q : Fin 128) :
    (iblk0 V c 2 t : Vec Ideal S1x128 .f32) (ix2 (0 : Fin 1) q)
      = (V c (Pipeline.arrRef spec0 2) : S1x128.Idx → EReal) (ix2 (0 : Fin 1) q) := by
  obtain ⟨-, -, -, -, e0, e1, -⟩ := block_index t
  show (V c (Pipeline.arrRef spec0 2) : S1x128.Idx → EReal) (((cfg0.win 2).blk t).view.emb (ix2 (0 : Fin 1) q)) = _
  congr 1
  funext a; apply Fin.ext
  match a with
  | ⟨0, _⟩ => show win0_2.index t (0 : Fin 2) * 1 + 1 * 0 = 0; omega
  | ⟨1, _⟩ => show win0_2.index t (1 : Fin 2) * 128 + 1 * q.val = q.val; omega

/-- What point t writes back is block t of the layer's result. -/
theorem flushed_eq (c : Dev nD) (t : Fin cfg0.N) :
    (dat0 V c).flushed 4 t = ((cfg0.win 4).blk t).view.read (Elt Ideal)
      (result (V c (Pipeline.arrRef spec0 0)) (V c (Pipeline.arrRef spec0 1)) (V c (Pipeline.arrRef spec0 2))
        (V c (Pipeline.arrRef spec0 3))) := by
  show (cfg0.win 4).cut (grid0.coords t) ((dat0 V c).after 4 t) = _
  rw [after0_4]
  unfold out0_4
  rw [View.canon_unit_zero hz]
  simp only [View.ld_unit_zero (S := S5000x128) hz, View.ld_unit_zero (S := S5000x1) hz,
    View.ld_unit_zero (S := S128x128) hz, View.ld_unit_zero (S := S1x128) hz]
  obtain ⟨-, -, -, -, -, -, -, -, e0, e1⟩ := block_index t
  have hN : grid0.N = 20 := N_0
  have ht : t.val < 20 := hN ▸ t.isLt
  funext j
  obtain ⟨p, q, rfl⟩ : ∃ (p : Fin 5000) (q : Fin 128), j = ix2 p q := ⟨j 0, j 1, eq_ix2 j⟩
  have hp : p.val < 5000 := p.isLt
  let r : Fin 100000 := ⟨t.val * 5000 + p.val, by omega⟩
  have hemb : ((cfg0.win 4).blk t).view.emb (ix2 p q) = (ix2 r q : S100000x128.Idx) := by
    funext a; apply Fin.ext
    match a with
    | ⟨0, _⟩ => show win0_4.index t (0 : Fin 2) * 5000 + 1 * p.val = t.val * 5000 + p.val; omega
    | ⟨1, _⟩ => show win0_4.index t (1 : Fin 2) * 128 + 1 * q.val = q.val; omega
  show k0_pay1 (iblk0 V c 0 t) (iblk0 V c 3 t) (iblk0 V c 1 t) (iblk0 V c 2 t) (ix2 p q)
    = result (V c (Pipeline.arrRef spec0 0)) (V c (Pipeline.arrRef spec0 1)) (V c (Pipeline.arrRef spec0 2))
        (V c (Pipeline.arrRef spec0 3)) (((cfg0.win 4).blk t).view.emb (ix2 p q))
  rw [hemb]
  refine (Body.relu_apply (iblk0 V c 0 t) (iblk0 V c 3 t) (iblk0 V c 1 t) (iblk0 V c 2 t) p q).trans ?_
  show _ = layer _ _ _ _ r q
  unfold layer
  rw [scale_block V c t p r rfl, bias_block V c t q]
  refine congrArg (max · 0) (congrArg (· + _) (Finset.sum_congr rfl fun k _ => ?_))
  rw [features_block V c t p k r rfl, weights_block V c t k q]

/-- An index of the output array is in point t's block iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v35).slice (win0_4.rect t)).set ↔ _
  rw [View.set_slice_whole, Rect.mem_set_unit]
  exact Iff.rfl

/-- Every entry of the output array is in some point's block: row r is in block r / 5000. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 20 := N_0
  have hlt : (i 0).val / 5000 < grid0.N := by rw [hN]; omega
  obtain ⟨-, -, -, -, -, -, -, -, e0, e1⟩ := block_index (⟨(i 0).val / 5000, hlt⟩ : Fin cfg0.N)
  refine ⟨⟨(i 0).val / 5000, hlt⟩, flush0_4 _, ?_⟩
  rw [mem_blk]
  intro a
  match a with
  | ⟨0, _⟩ =>
    show win0_4.index ⟨(i 0).val / 5000, hlt⟩ (0 : Fin 2) * 5000 ≤ (i 0).val
      ∧ (i 0).val < win0_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, hlt⟩ (1 : Fin 2) * 128 ≤ (i 1).val
      ∧ (i 1).val < win0_4.index ⟨(i 0).val / 5000, hlt⟩ (1 : Fin 2) * 128 + 128
    rw [e1]; omega

/-- The output array after the region's last point is the layer's result of the four input arrays as the region finds
    them. -/
theorem final (c : Dev nD) :
    (dat0 V c).arrAt 4 cfg0.N
      = result (V c (Pipeline.arrRef spec0 0)) (V c (Pipeline.arrRef spec0 1)) (V c (Pipeline.arrRef spec0 2))
          (V c (Pipeline.arrRef spec0 3)) :=
  (dat0 V c).arrAt_eq_of_cover 4 _ (fun t _ => flushed_eq V c t) covered

/-- The same, entry by entry. -/
theorem final_apply (c : Dev nD) (r : Fin 100000) (q : Fin 128) :
    ((dat0 V c).arrAt 4 cfg0.N : S100000x128.Idx → EReal) (ix2 r q)
      = max ((∑ k : Fin 128, (features V c (ix2 r k) * scale V c (ix2 r (0 : Fin 1))) * weights V c (ix2 k q))
        + bias V c (ix2 (0 : Fin 1) q)) 0 := by
  rw [final V c]; rfl

end Cert.KernelIdeal.Region0

end
-- ==== Proof.Region1.lean ====
/-
  Region 1: what the second row-blocked layer leaves in its output array, as one function of its four input arrays.

  The grid has 20 points; point t stages rows 5000 t … 5000 t + 4999 of the feature array X and of the per-row scale
  column N, the whole weight matrix W and the whole bias row B, and writes back rows 5000 t … 5000 t + 4999 of the
  output. The 20 row blocks tile the 100000 rows, so after the last point the output array holds, at (r, q),

      max ( Σ_{k < 128} (X[r, k] · N[r, 0]) · W[k, q] + B[0, q] ) 0

  whatever it held before.
-/
import proofs.«128273_j63677185130847_2_alg».proof.Proof.Gen.KernelIdeal.Frame
import proofs.«128273_j63677185130847_2_alg».proof.Proof.Body
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's four input arrays as it finds them: features, weights, bias row, per-row scale column. -/
abbrev features (c : Dev nD) : S100000x128.Idx → EReal := V c (Pipeline.arrRef spec1 0)
abbrev weights (c : Dev nD) : S128x128.Idx → EReal := V c (Pipeline.arrRef spec1 1)
abbrev bias (c : Dev nD) : S1x128.Idx → EReal := V c (Pipeline.arrRef spec1 2)
abbrev scale (c : Dev nD) : S100000x1.Idx → EReal := V c (Pipeline.arrRef spec1 3)

/-- The layer at row r and column q, of the four arrays. -/
def layer (X : S100000x128.Idx → EReal) (W : S128x128.Idx → EReal) (B : S1x128.Idx → EReal) (Nn : S100000x1.Idx → EReal)
    (r : Fin 100000) (q : Fin 128) : EReal :=
  max ((∑ k : Fin 128, (X (ix2 r k) * Nn (ix2 r (0 : Fin 1))) * W (ix2 k q)) + B (ix2 (0 : Fin 1) q)) 0

/-- The whole output array: the layer at every entry. -/
def result (X : S100000x128.Idx → EReal) (W : S128x128.Idx → EReal) (B : S1x128.Idx → EReal) (Nn : S100000x1.Idx → EReal) :
    S100000x128.Idx → EReal :=
  fun i => layer X W B Nn (i 0) (i 1)

/-- Where each window's block sits at grid point t: the row-blocked windows at block row t, the weights and the bias at
    their one block. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Entry (p, k) of the feature block at point t is entry (5000 t + p, k) of the feature array. -/
theorem features_block (c : Dev nD) (t : Fin cfg1.N) (p : Fin 5000) (k : Fin 128) (r : Fin 100000)
    (hr : r.val = t.val * 5000 + p.val) :
    (iblk1 V c 0 t : Vec Ideal S5000x128 .f32) (ix2 p k)
      = (V c (Pipeline.arrRef spec1 0) : S100000x128.Idx → EReal) (ix2 r k) := by
  obtain ⟨e0, e1, -⟩ := block_index t
  show (V c (Pipeline.arrRef spec1 0) : S100000x128.Idx → EReal) (((cfg1.win 0).blk t).view.emb (ix2 p k)) = _
  congr 1
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- Entry (p, 0) of the scale block at point t is entry (5000 t + p, 0) of the scale column. -/
theorem scale_block (c : Dev nD) (t : Fin cfg1.N) (p : Fin 5000) (r : Fin 100000)
    (hr : r.val = t.val * 5000 + p.val) :
    (iblk1 V c 3 t : Vec Ideal S5000x1 .f32) (ix2 p (0 : Fin 1))
      = (V c (Pipeline.arrRef spec1 3) : S100000x1.Idx → EReal) (ix2 r (0 : Fin 1)) := by
  obtain ⟨-, -, -, -, -, -, e0, e1, -⟩ := block_index t
  show (V c (Pipeline.arrRef spec1 3) : S100000x1.Idx → EReal) (((cfg1.win 3).blk t).view.emb (ix2 p (0 : Fin 1))) = _
  congr 1
  funext a; apply Fin.ext
  match a with
  | ⟨0, _⟩ => show win1_3.index t (0 : Fin 2) * 5000 + 1 * p.val = r.val; omega
  | ⟨1, _⟩ => show win1_3.index t (1 : Fin 2) * 1 + 1 * 0 = 0; omega

/-- The weight block at any point is the weight matrix. -/
theorem weights_block (c : Dev nD) (t : Fin cfg1.N) (k : Fin 128) (q : Fin 128) :
    (iblk1 V c 1 t : Vec Ideal S128x128 .f32) (ix2 k q)
      = (V c (Pipeline.arrRef spec1 1) : S128x128.Idx → EReal) (ix2 k q) := by
  obtain ⟨-, -, e0, e1, -⟩ := block_index t
  show (V c (Pipeline.arrRef spec1 1) : S128x128.Idx → EReal) (((cfg1.win 1).blk t).view.emb (ix2 k q)) = _
  congr 1
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- The bias block at any point is the bias row. -/
theorem bias_block (c : Dev nD) (t : Fin cfg1.N) (q : Fin 128) :
    (iblk1 V c 2 t : Vec Ideal S1x128 .f32) (ix2 (0 : Fin 1) q)
      = (V c (Pipeline.arrRef spec1 2) : S1x128.Idx → EReal) (ix2 (0 : Fin 1) q) := by
  obtain ⟨-, -, -, -, e0, e1, -⟩ := block_index t
  show (V c (Pipeline.arrRef spec1 2) : S1x128.Idx → EReal) (((cfg1.win 2).blk t).view.emb (ix2 (0 : Fin 1) q)) = _
  congr 1
  funext a; apply Fin.ext
  match a with
  | ⟨0, _⟩ => show win1_2.index t (0 : Fin 2) * 1 + 1 * 0 = 0; omega
  | ⟨1, _⟩ => show win1_2.index t (1 : Fin 2) * 128 + 1 * q.val = q.val; omega

/-- What point t writes back is block t of the layer's result. -/
theorem flushed_eq (c : Dev nD) (t : Fin cfg1.N) :
    (dat1 V c).flushed 4 t = ((cfg1.win 4).blk t).view.read (Elt Ideal)
      (result (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz,
    View.ld_unit_zero (S := S128x128) hz, View.ld_unit_zero (S := S1x128) hz]
  obtain ⟨-, -, -, -, -, -, -, -, e0, e1⟩ := block_index t
  have hN : grid1.N = 20 := N_1
  have ht : t.val < 20 := hN ▸ t.isLt
  funext j
  obtain ⟨p, q, rfl⟩ : ∃ (p : Fin 5000) (q : Fin 128), j = ix2 p q := ⟨j 0, j 1, eq_ix2 j⟩
  have hp : p.val < 5000 := p.isLt
  let r : Fin 100000 := ⟨t.val * 5000 + p.val, by omega⟩
  have hemb : ((cfg1.win 4).blk t).view.emb (ix2 p q) = (ix2 r q : S100000x128.Idx) := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  show k1_pay1 (iblk1 V c 0 t) (iblk1 V c 3 t) (iblk1 V c 1 t) (iblk1 V c 2 t) (ix2 p q)
    = result (V c (Pipeline.arrRef spec1 0)) (V c (Pipeline.arrRef spec1 1)) (V c (Pipeline.arrRef spec1 2))
        (V c (Pipeline.arrRef spec1 3)) (((cfg1.win 4).blk t).view.emb (ix2 p q))
  rw [hemb]
  refine (Body.relu_apply₁ (iblk1 V c 0 t) (iblk1 V c 3 t) (iblk1 V c 1 t) (iblk1 V c 2 t) p q).trans ?_
  show _ = layer _ _ _ _ r q
  unfold layer
  rw [scale_block V c t p r rfl, bias_block V c t q]
  refine congrArg (max · 0) (congrArg (· + _) (Finset.sum_congr rfl fun k _ => ?_))
  rw [features_block V c t p k r rfl, weights_block V c t k q]

/-- An index of the output array is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v60).slice (win1_4.rect t)).set ↔ _
  rw [View.set_slice_whole, Rect.mem_set_unit]
  exact Iff.rfl

/-- Every entry of the output array is in some point's block: row r is in block r / 5000. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  have hlt : (i 0).val / 5000 < grid1.N := by rw [hN]; omega
  obtain ⟨-, -, -, -, -, -, -, -, e0, e1⟩ := block_index (⟨(i 0).val / 5000, hlt⟩ : Fin cfg1.N)
  refine ⟨⟨(i 0).val / 5000, hlt⟩, flush1_4 _, ?_⟩
  rw [mem_blk]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, hlt⟩ (1 : Fin 2) * 128 ≤ (i 1).val
      ∧ (i 1).val < win1_4.index ⟨(i 0).val / 5000, hlt⟩ (1 : Fin 2) * 128 + 128
    rw [e1]; omega

/-- The output array after the region's last point is the layer's result of the four input arrays as the region finds
    them. -/
theorem final (c : Dev nD) :
    (dat1 V c).arrAt 4 cfg1.N
      = result (V c (Pipeline.arrRef spec1 0)) (V c (Pipeline.arrRef spec1 1)) (V c (Pipeline.arrRef spec1 2))
          (V c (Pipeline.arrRef spec1 3)) :=
  (dat1 V c).arrAt_eq_of_cover 4 _ (fun t _ => flushed_eq V c t) covered

/-- The same, entry by entry. -/
theorem final_apply (c : Dev nD) (r : Fin 100000) (q : Fin 128) :
    ((dat1 V c).arrAt 4 cfg1.N : S100000x128.Idx → EReal) (ix2 r q)
      = max ((∑ k : Fin 128, (features V c (ix2 r k) * scale V c (ix2 r (0 : Fin 1))) * weights V c (ix2 k q))
        + bias V c (ix2 (0 : Fin 1) q)) 0 := by
  rw [final V c]; rfl

end Cert.KernelIdeal.Region1

end
-- ==== Proof.Region2.lean ====
/-
  Region 2: what the third row-blocked layer leaves in its output array, as one function of its four input arrays.

  The grid has 20 points; point t stages rows 5000 t … 5000 t + 4999 of the feature array X and of the per-row scale
  column N, the whole weight matrix W and the whole bias row B, and writes back rows 5000 t … 5000 t + 4999 of the
  output. The 20 row blocks tile the 100000 rows, so after the last point the output array holds, at (r, q),

      Σ_{k < 128} (X[r, k] · N[r, 0]) · W[k, q] + B[0, q]

  whatever it held before.
-/
import proofs.«128273_j63677185130847_2_alg».proof.Proof.Gen.KernelIdeal.Frame
import proofs.«128273_j63677185130847_2_alg».proof.Proof.Body
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's four input arrays as it finds them: features, weights, bias row, per-row scale column. -/
abbrev features (c : Dev nD) : S100000x128.Idx → EReal := V c (Pipeline.arrRef spec2 0)
abbrev weights (c : Dev nD) : S128x40.Idx → EReal := V c (Pipeline.arrRef spec2 1)
abbrev bias (c : Dev nD) : S1x40.Idx → EReal := V c (Pipeline.arrRef spec2 2)
abbrev scale (c : Dev nD) : S100000x1.Idx → EReal := V c (Pipeline.arrRef spec2 3)

/-- The layer at row r and column q, of the four arrays. -/
def layer (X : S100000x128.Idx → EReal) (W : S128x40.Idx → EReal) (B : S1x40.Idx → EReal) (Nn : S100000x1.Idx → EReal)
    (r : Fin 100000) (q : Fin 40) : EReal :=
  (∑ k : Fin 128, (X (ix2 r k) * Nn (ix2 r (0 : Fin 1))) * W (ix2 k q)) + B (ix2 (0 : Fin 1) q)

/-- The whole output array: the layer at every entry. -/
def result (X : S100000x128.Idx → EReal) (W : S128x40.Idx → EReal) (B : S1x40.Idx → EReal) (Nn : S100000x1.Idx → EReal) :
    S100000x40.Idx → EReal :=
  fun i => layer X W B Nn (i 0) (i 1)

/-- Where each window's block sits at grid point t: the row-blocked windows at block row t, the weights and the bias at
    their one block. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Entry (p, k) of the feature block at point t is entry (5000 t + p, k) of the feature array. -/
theorem features_block (c : Dev nD) (t : Fin cfg2.N) (p : Fin 5000) (k : Fin 128) (r : Fin 100000)
    (hr : r.val = t.val * 5000 + p.val) :
    (iblk2 V c 0 t : Vec Ideal S5000x128 .f32) (ix2 p k)
      = (V c (Pipeline.arrRef spec2 0) : S100000x128.Idx → EReal) (ix2 r k) := by
  obtain ⟨e0, e1, -⟩ := block_index t
  show (V c (Pipeline.arrRef spec2 0) : S100000x128.Idx → EReal) (((cfg2.win 0).blk t).view.emb (ix2 p k)) = _
  congr 1
  funext a; apply Fin.ext
  match a with
  | ⟨0, _⟩ => show win2_0.index t (0 : Fin 2) * 5000 + 1 * p.val = r.val; omega
  | ⟨1, _⟩ => show win2_0.index t (1 : Fin 2) * 128 + 1 * k.val = k.val; omega

/-- Entry (p, 0) of the scale block at point t is entry (5000 t + p, 0) of the scale column. -/
theorem scale_block (c : Dev nD) (t : Fin cfg2.N) (p : Fin 5000) (r : Fin 100000)
    (hr : r.val = t.val * 5000 + p.val) :
    (iblk2 V c 3 t : Vec Ideal S5000x1 .f32) (ix2 p (0 : Fin 1))
      = (V c (Pipeline.arrRef spec2 3) : S100000x1.Idx → EReal) (ix2 r (0 : Fin 1)) := by
  obtain ⟨-, -, -, -, -, -, e0, e1, -⟩ := block_index t
  show (V c (Pipeline.arrRef spec2 3) : S100000x1.Idx → EReal) (((cfg2.win 3).blk t).view.emb (ix2 p (0 : Fin 1))) = _
  congr 1
  funext a; apply Fin.ext
  match a with
  | ⟨0, _⟩ => show win2_3.index t (0 : Fin 2) * 5000 + 1 * p.val = r.val; omega
  | ⟨1, _⟩ => show win2_3.index t (1 : Fin 2) * 1 + 1 * 0 = 0; omega

/-- The weight block at any point is the weight matrix. -/
theorem weights_block (c : Dev nD) (t : Fin cfg2.N) (k : Fin 128) (q : Fin 40) :
    (iblk2 V c 1 t : Vec Ideal S128x40 .f32) (ix2 k q)
      = (V c (Pipeline.arrRef spec2 1) : S128x40.Idx → EReal) (ix2 k q) := by
  obtain ⟨-, -, e0, e1, -⟩ := block_index t
  show (V c (Pipeline.arrRef spec2 1) : S128x40.Idx → EReal) (((cfg2.win 1).blk t).view.emb (ix2 k q)) = _
  congr 1
  funext a; apply Fin.ext
  match a with
  | ⟨0, _⟩ => show win2_1.index t (0 : Fin 2) * 128 + 1 * k.val = k.val; omega
  | ⟨1, _⟩ => show win2_1.index t (1 : Fin 2) * 40 + 1 * q.val = q.val; omega

/-- The bias block at any point is the bias row. -/
theorem bias_block (c : Dev nD) (t : Fin cfg2.N) (q : Fin 40) :
    (iblk2 V c 2 t : Vec Ideal S1x40 .f32) (ix2 (0 : Fin 1) q)
      = (V c (Pipeline.arrRef spec2 2) : S1x40.Idx → EReal) (ix2 (0 : Fin 1) q) := by
  obtain ⟨-, -, -, -, e0, e1, -⟩ := block_index t
  show (V c (Pipeline.arrRef spec2 2) : S1x40.Idx → EReal) (((cfg2.win 2).blk t).view.emb (ix2 (0 : Fin 1) q)) = _
  congr 1
  funext a; apply Fin.ext
  match a with
  | ⟨0, _⟩ => show win2_2.index t (0 : Fin 2) * 1 + 1 * 0 = 0; omega
  | ⟨1, _⟩ => show win2_2.index t (1 : Fin 2) * 40 + 1 * q.val = q.val; omega

/-- What point t writes back is block t of the layer's result. -/
theorem flushed_eq (c : Dev nD) (t : Fin cfg2.N) :
    (dat2 V c).flushed 4 t = ((cfg2.win 4).blk t).view.read (Elt Ideal)
      (result (V c (Pipeline.arrRef spec2 0)) (V c (Pipeline.arrRef spec2 1)) (V c (Pipeline.arrRef spec2 2))
        (V c (Pipeline.arrRef spec2 3))) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz,
    View.ld_unit_zero (S := S128x40) hz, View.ld_unit_zero (S := S1x40) hz]
  obtain ⟨-, -, -, -, -, -, -, -, e0, e1⟩ := block_index t
  have hN : grid2.N = 20 := N_2
  have ht : t.val < 20 := hN ▸ t.isLt
  funext j
  obtain ⟨p, q, rfl⟩ : ∃ (p : Fin 5000) (q : Fin 40), j = ix2 p q := ⟨j 0, j 1, eq_ix2 j⟩
  have hp : p.val < 5000 := p.isLt
  let r : Fin 100000 := ⟨t.val * 5000 + p.val, by omega⟩
  have hemb : ((cfg2.win 4).blk t).view.emb (ix2 p q) = (ix2 r q : S100000x40.Idx) := by
    funext a; apply Fin.ext
    match a with
    | ⟨0, _⟩ => show win2_4.index t (0 : Fin 2) * 5000 + 1 * p.val = t.val * 5000 + p.val; omega
    | ⟨1, _⟩ => show win2_4.index t (1 : Fin 2) * 40 + 1 * q.val = q.val; omega
  show k2_pay1 (iblk2 V c 0 t) (iblk2 V c 3 t) (iblk2 V c 1 t) (iblk2 V c 2 t) (ix2 p q)
    = result (V c (Pipeline.arrRef spec2 0)) (V c (Pipeline.arrRef spec2 1)) (V c (Pipeline.arrRef spec2 2))
        (V c (Pipeline.arrRef spec2 3)) (((cfg2.win 4).blk t).view.emb (ix2 p q))
  rw [hemb]
  refine (Body.affine_apply (iblk2 V c 0 t) (iblk2 V c 3 t) (iblk2 V c 1 t) (iblk2 V c 2 t) p q).trans ?_
  show _ = layer _ _ _ _ r q
  unfold layer
  rw [scale_block V c t p r rfl, bias_block V c t q]
  refine congrArg (· + _) (Finset.sum_congr rfl fun k _ => ?_)
  rw [features_block V c t p k r rfl, weights_block V c t k q]

/-- An index of the output array is in point t's block iff each coordinate is in the block's range on its axis. -/
theorem mem_blk (t : Fin cfg2.N) (i : S100000x40.Idx) :
    i ∈ ((cfg2.win 4).blk t).view.set ↔ ∀ a : Fin 2, win2_4.index t a * S5000x40.size a ≤ (i a).val
      ∧ (i a).val < win2_4.index t a * S5000x40.size a + S5000x40.size a := by
  show i ∈ ((View.whole main_v61).slice (win2_4.rect t)).set ↔ _
  rw [View.set_slice_whole, Rect.mem_set_unit]
  exact Iff.rfl

/-- Every entry of the output array is in some point's block: row r is in block r / 5000. -/
theorem covered (i : S100000x40.Idx) :
    ∃ t : Fin cfg2.N, (cfg2.win 4).flush t = true ∧ i ∈ ((cfg2.win 4).blk t).view.set := by
  have hi0 : (i 0).val < 100000 := (i 0).isLt
  have hi1 : (i 1).val < 40 := (i 1).isLt
  have hN : grid2.N = 20 := N_2
  have hlt : (i 0).val / 5000 < grid2.N := by rw [hN]; omega
  obtain ⟨-, -, -, -, -, -, -, -, e0, e1⟩ := block_index (⟨(i 0).val / 5000, hlt⟩ : Fin cfg2.N)
  refine ⟨⟨(i 0).val / 5000, hlt⟩, flush2_4 _, ?_⟩
  rw [mem_blk]
  intro a
  match a with
  | ⟨0, _⟩ =>
    show win2_4.index ⟨(i 0).val / 5000, hlt⟩ (0 : Fin 2) * 5000 ≤ (i 0).val
      ∧ (i 0).val < win2_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, hlt⟩ (1 : Fin 2) * 40 ≤ (i 1).val
      ∧ (i 1).val < win2_4.index ⟨(i 0).val / 5000, hlt⟩ (1 : Fin 2) * 40 + 40
    rw [e1]; omega

/-- The output array after the region's last point is the layer's result of the four input arrays as the region finds
    them. -/
theorem final (c : Dev nD) :
    (dat2 V c).arrAt 4 cfg2.N
      = result (V c (Pipeline.arrRef spec2 0)) (V c (Pipeline.arrRef spec2 1)) (V c (Pipeline.arrRef spec2 2))
          (V c (Pipeline.arrRef spec2 3)) :=
  (dat2 V c).arrAt_eq_of_cover 4 _ (fun t _ => flushed_eq V c t) covered

/-- The same, entry by entry. -/
theorem final_apply (c : Dev nD) (r : Fin 100000) (q : Fin 40) :
    ((dat2 V c).arrAt 4 cfg2.N : S100000x40.Idx → EReal) (ix2 r q)
      = (∑ k : Fin 128, (features V c (ix2 r k) * scale V c (ix2 r (0 : Fin 1))) * weights V c (ix2 k q))
        + bias V c (ix2 (0 : Fin 1) q) := by
  rw [final V c]; rfl

end Cert.KernelIdeal.Region2

end
-- ==== Proof.KernelValue.lean ====
/-
  The idealized kernel's result read row by column.  Each pallas_call leaves, in its output array, the affine map
  of its scaled input rows (clamped at zero in layers 1 and 2); the host stretches between them are hops and row
  scalings.  Composed from the arguments upward, the result is the network in the kernel's arrangement, of the
  arguments read row by column, with the edges' read rows and landing sets decoded from the two index arguments and
  the node scale from the in-degrees.
-/
import proofs.«128273_j63677185130847_2_alg».proof.Proof.KernelHost
import proofs.«128273_j63677185130847_2_alg».proof.Proof.LibGraphConvRead
import proofs.«128273_j63677185130847_2_alg».proof.Proof.Region0
import proofs.«128273_j63677185130847_2_alg».proof.Proof.Region1
import proofs.«128273_j63677185130847_2_alg».proof.Proof.Region2
import Idealize.ShloMosaic.Lib.ValueLayout

set_option maxRecDepth 16384

noncomputable section

namespace Cert.KernelIdeal.KValue

open Cert.KernelIdeal Cert.KernelIdeal.Gen Cert.KernelIdeal.KHost Idealize.ShloMosaic Idealize.ShloMosaic.TcCoe
open Idealize.ShloMosaic.ValueIdx Idealize.SL.Sem
open Cert.Spec Cert.HostRead Cert.GatherRows Cert.ScatterRows

theorem hN : 0 < 100000 := by norm_num

/-- the node an edge reads: its source index, wrapped if negative, clamped into range -/
def ρK (a1 : IVec S1600000 32) : Fin 1600000 → Fin 100000 := rowAt 100000 hN (srcCol a1)

/-- the edges landing on a node: those whose destination index is the node -/
def LK (a2 : IVec S1600000 32) : Fin 100000 → Finset (Fin 1600000) := fun v => landing (dstCol a2) v.val

/-- the node scale -/
def nK (a2 : IVec S1600000 32) : Fin 100000 → EReal := fun v => ncol a2 (ix2 v (0 : Fin 1))

/-! ## The host operations, row by column -/

theorem cur_hop128 (a1 a2 : IVec S1600000 32) (h : FVec Ideal S100000x128 .f32) :
    cur (N := 100000) (C := 128) (hop128 a1 a2 h) = hop (ρK a1) (LK a2) (cur h) := by
  unfold hop128
  rw [cur_hop hN _ rfl rfl rfl rfl _ rfl rfl rfl rfl rfl rfl rfl _ (fun i => zeros_apply _ _ i)]
  rfl

theorem cur_hop40 (a1 a2 : IVec S1600000 32) (h : FVec Ideal S100000x40 .f32) :
    cur (N := 100000) (C := 40) (hop40 a1 a2 h) = hop (ρK a1) (LK a2) (cur h) := by
  unfold hop40
  rw [cur_hop hN _ rfl rfl rfl rfl _ rfl rfl rfl rfl rfl rfl rfl _ (fun i => zeros_apply _ _ i)]
  rfl

theorem cur_sc128_n (h : FVec Ideal S100000x128 .f32) (a2 : IVec S1600000 32) :
    cur (N := 100000) (C := 128) (sc128 h (ncol a2)) = scale (cur h) (nK a2) := by
  unfold sc128
  rw [cur_scale]
  rfl

/-- the squared scale column reads, at a node, the node scale times itself -/
theorem n2col_apply (a2 : IVec S1600000 32) (v : Fin 100000) : n2col a2 (ix2 v (0 : Fin 1)) = nK a2 v * nK a2 v := by
  unfold n2col nK
  exact mulf_apply _ _ _

theorem cur_sc128_n2 (h : FVec Ideal S100000x128 .f32) (a2 : IVec S1600000 32) :
    cur (N := 100000) (C := 128) (sc128 h (n2col a2)) = scale (cur h) (fun v => nK a2 v * nK a2 v) := by
  unfold sc128
  rw [cur_scale]
  exact congrArg (scale (cur h)) (funext fun v => n2col_apply a2 v)

theorem cur_sc40_n (h : FVec Ideal S100000x40 .f32) (a2 : IVec S1600000 32) :
    cur (N := 100000) (C := 40) (sc40 h (ncol a2)) = scale (cur h) (nK a2) := by
  unfold sc40
  rw [cur_scale]
  rfl

theorem cur_sc40_n2 (h : FVec Ideal S100000x40 .f32) (a2 : IVec S1600000 32) :
    cur (N := 100000) (C := 40) (sc40 h (n2col a2)) = scale (cur h) (fun v => nK a2 v * nK a2 v) := by
  unfold sc40
  rw [cur_scale]
  exact congrArg (scale (cur h)) (funext fun v => n2col_apply a2 v)

theorem cur_pre (a1 a2 : IVec S1600000 32) (x : FVec Ideal S100000x128 .f32) :
    cur (N := 100000) (C := 128) (pre a1 a2 x)
      = hop (ρK a1) (LK a2) (scale (hop (ρK a1) (LK a2) (scale (cur x) (nK a2))) (fun v => nK a2 v * nK a2 v)) := by
  unfold pre preOf
  rw [cur_hop128, cur_sc128_n2, cur_hop128, cur_sc128_n]

theorem cur_post (a1 a2 : IVec S1600000 32) (a8 : FVec Ideal S40 .f32) (p : FVec Ideal S100000x40 .f32) :
    cur (N := 100000) (C := 40) (KHost.post a1 a2 a8 p)
      = fun v q => scale (hop (ρK a1) (LK a2) (scale (hop (ρK a1) (LK a2) (cur p)) (fun v => nK a2 v * nK a2 v))) (nK a2) v q
          + cur1 a8 q := by
  unfold KHost.post postOf
  rw [cur_add_bias, cur_sc40_n, cur_hop40, cur_sc40_n2, cur_hop40]

/-- a bias vector laid out as one row reads, at column `q`, the vector's entry `q` -/
theorem rowOf_apply (b : FVec Ideal S128 .f32) : (fun q : Fin 128 => rowOf b (ix2 (0 : Fin 1) q)) = cur1 b := by
  funext q
  exact shapeCast_a_1a_apply b _ 0 q

theorem zeroRow40_apply : (fun q : Fin 40 => zeroRow40 (ix2 (0 : Fin 1) q)) = fun _ => (0 : EReal) := by
  funext q
  exact zeros_apply _ _ _

/-! ## What a pallas_call leaves, row by column -/

theorem cur_result0 (X : S100000x128.Idx → EReal) (W : S128x128.Idx → EReal) (B : S1x128.Idx → EReal)
    (Nn : S100000x1.Idx → EReal) :
    cur (N := 100000) (C := 128) (Region0.result X W B Nn)
      = relu (lin (scale (cur X) (fun v => Nn (ix2 v (0 : Fin 1)))) (cur W) (fun q => B (ix2 (0 : Fin 1) q))) := by
  funext v q
  rfl

theorem cur_result1 (X : S100000x128.Idx → EReal) (W : S128x128.Idx → EReal) (B : S1x128.Idx → EReal)
    (Nn : S100000x1.Idx → EReal) :
    cur (N := 100000) (C := 128) (Region1.result X W B Nn)
      = relu (lin (scale (cur X) (fun v => Nn (ix2 v (0 : Fin 1)))) (cur W) (fun q => B (ix2 (0 : Fin 1) q))) := by
  funext v q
  rfl

theorem cur_result2 (X : S100000x128.Idx → EReal) (W : S128x40.Idx → EReal) (B : S1x40.Idx → EReal)
    (Nn : S100000x1.Idx → EReal) :
    cur (N := 100000) (C := 40) (Region2.result X W B Nn)
      = lin (scale (cur X) (fun v => Nn (ix2 v (0 : Fin 1)))) (cur W) (fun q => B (ix2 (0 : Fin 1) q)) := by
  funext v q
  rfl

/-! ## The layers -/

variable (m : (ℓ : Loc nD τ sig) → Buf (Elt Ideal) ℓ) (ρ : Dev nD → PrngReg) (c : Dev nD)

/-- After the first pallas_call: layer 1. -/
theorem layer1 : cur (N := 100000) (C := 128) (W4 (F := Ideal) m ρ c (Proc.devRef .tc main_v35))
    = layerK (ρK (A1 m c)) (LK (A2 m c)) (nK (A2 m c)) (cur (A0 m c)) (cur (A3 m c)) (cur1 (A4 m c)) := by
  have e0 : V3 (F := Ideal) m ρ c (Pipeline.arrRef spec0 0) = pre (A1 m c) (A2 m c) (A0 m c) := v34_3 m ρ c
  have e1 : V3 (F := Ideal) m ρ c (Pipeline.arrRef spec0 1) = A3 m c := a3_3 m ρ c
  have e2 : V3 (F := Ideal) m ρ c (Pipeline.arrRef spec0 2) = rowOf (A4 m c) := v8_3 m ρ c
  have e3 : V3 (F := Ideal) m ρ c (Pipeline.arrRef spec0 3) = ncol (A2 m c) := (kept3 m ρ c).v6
  rw [v35_4, Region0.final, e0, e1, e2, e3, cur_result0, cur_pre, rowOf_apply]
  rfl

/-- After the second pallas_call: layer 2 of layer 1. -/
theorem layer2 : cur (N := 100000) (C := 128) (W6 (F := Ideal) m ρ c (Proc.devRef .tc main_v60))
    = layerK (ρK (A1 m c)) (LK (A2 m c)) (nK (A2 m c))
        (cur (N := 100000) (C := 128) (W4 (F := Ideal) m ρ c (Proc.devRef .tc main_v35))) (cur (A5 m c)) (cur1 (A6 m c)) := by
  have e0 : V5 (F := Ideal) m ρ c (Pipeline.arrRef spec1 0)
      = pre (A1 m c) (A2 m c) (W4 (F := Ideal) m ρ c (Proc.devRef .tc main_v35)) := v59_5 m ρ c
  have e1 : V5 (F := Ideal) m ρ c (Pipeline.arrRef spec1 1) = A5 m c := (kept5 m ρ c).a5
  have e2 : V5 (F := Ideal) m ρ c (Pipeline.arrRef spec1 2) = rowOf (A6 m c) := (kept5 m ρ c).v9
  have e3 : V5 (F := Ideal) m ρ c (Pipeline.arrRef spec1 3) = ncol (A2 m c) := (kept5 m ρ c).v6
  rw [v60_6, Region1.final, e0, e1, e2, e3, cur_result1, cur_pre, rowOf_apply]
  rfl

/-- After the third pallas_call: the last layer's weight applied to the scaled rows, zero bias. -/
theorem proj3 : cur (N := 100000) (C := 40) (W7 (F := Ideal) m ρ c (Proc.devRef .tc main_v61))
    = lin (scale (cur (N := 100000) (C := 128) (W6 (F := Ideal) m ρ c (Proc.devRef .tc main_v60))) (nK (A2 m c)))
        (cur (A7 m c)) (fun _ => 0) := by
  have e1 : V6 (F := Ideal) m ρ c (Pipeline.arrRef spec2 1) = A7 m c := (kept6 m ρ c).a7
  have e2 : V6 (F := Ideal) m ρ c (Pipeline.arrRef spec2 2) = zeroRow40 := (kept6 m ρ c).v10
  have e3 : V6 (F := Ideal) m ρ c (Pipeline.arrRef spec2 3) = ncol (A2 m c) := (kept6 m ρ c).v6
  rw [v61_7, Region2.final, e1, e2, e3, cur_result2, zeroRow40_apply]
  rfl

/-- THE KERNEL'S RESULT, read row by column, is the network in the kernel's arrangement. -/
theorem value : cur (N := 100000) (C := 40) (W8 (F := Ideal) m ρ c (Proc.devRef .tc main_v88))
    = netK (ρK (A1 m c)) (LK (A2 m c)) (nK (A2 m c)) (cur (A0 m c)) (cur (A3 m c)) (cur1 (A4 m c))
        (cur (A5 m c)) (cur1 (A6 m c)) (cur (A7 m c)) (cur1 (A8 m c)) := by
  rw [v88_8, cur_post, proj3, layer2, layer1]
  rfl

end Cert.KernelIdeal.KValue

end
-- ==== Proof.RefValue.lean ====
/-
  The reference read row by column.  Stage by stage, from the arguments upward: every product with the column of
  node scales is a row scaling, every gather followed by a scatter-add into zeros is a hop over the edges, every
  matrix product plus bias is an affine map of the feature axis, every maximum with zeros the clamp; composed, the
  reference's result is the network in the reference's arrangement, of the arguments read row by column, with the
  edges' read rows and landing sets decoded from the two index arguments and the node scale from the in-degrees.
-/
import proofs.«128273_j63677185130847_2_alg».proof.Proof.Gen.ReferenceIdeal.Read
import proofs.«128273_j63677185130847_2_alg».proof.Proof.LibGraphConvRead

noncomputable section

namespace Cert.ReferenceIdeal.RefValue

open Cert.ReferenceIdeal Cert.ReferenceIdeal.Read Idealize.ShloMosaic Idealize.ShloMosaic.ValueIdx
open Cert.Spec Cert.HostRead Cert.GatherRows Cert.ScatterRows

theorem hN : 0 < 100000 := by norm_num

variable (x0 : (⟨S100000x128, .f32⟩ : BufTy).Contents (Elt Ideal)) (x1 x2 : (⟨S1600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x40, .f32⟩ : BufTy).Contents (Elt Ideal)) (x8 : (⟨S40, .f32⟩ : BufTy).Contents (Elt Ideal))

/-- the node an edge reads: its source index, wrapped if negative, clamped into range -/
def ρR : Fin 1600000 → Fin 100000 := rowAt 100000 hN (val_main_v14 (F := Ideal) x1)

/-- the edges landing on a node: those whose destination index is the node -/
def LR : Fin 100000 → Finset (Fin 1600000) := fun v => landing (val_main_v2 (F := Ideal) x2) v.val

/-- the node scale: the inverse square root of the in-degree clamped below at one -/
def nR : Fin 100000 → EReal := fun v => val_main_v6 (F := Ideal) x2 (ix2 v (0 : Fin 1))

theorem s8 : cur (N := 100000) (C := 128) (val_main_v8 (F := Ideal) x0 x2) = scale (cur x0) (nR x2) := by
  unfold val_main_v8 val_main_v7
  rw [cur_scale]
  rfl

theorem s18 : cur (N := 100000) (C := 128) (val_main_v18 (F := Ideal) x0 x1 x2) = hop (ρR x1) (LR x2) (scale (cur x0) (nR x2)) := by
  unfold val_main_v18 val_main_v15 val_main_v16 val_main_cst_3
  rw [cur_hop hN _ rfl rfl rfl rfl _ rfl rfl rfl rfl rfl rfl rfl _ (fun i => zeros_apply _ _ i), s8]
  rfl

theorem s20 : cur (N := 100000) (C := 128) (val_main_v20 (F := Ideal) x0 x1 x2) = scale (hop (ρR x1) (LR x2) (scale (cur x0) (nR x2))) (nR x2) := by
  unfold val_main_v20 val_main_v19
  rw [cur_scale, s18]
  rfl

theorem s22 : cur (N := 100000) (C := 128) (val_main_v22 (F := Ideal) x0 x1 x2) = scale (scale (hop (ρR x1) (LR x2) (scale (cur x0) (nR x2))) (nR x2)) (nR x2) := by
  unfold val_main_v22 val_main_v21
  rw [cur_scale, s20]
  rfl

theorem s32 : cur (N := 100000) (C := 128) (val_main_v32 (F := Ideal) x0 x1 x2) = hop (ρR x1) (LR x2) (scale (scale (hop (ρR x1) (LR x2) (scale (cur x0) (nR x2))) (nR x2)) (nR x2)) := by
  unfold val_main_v32 val_main_v29 val_main_v30 val_main_cst_6
  rw [cur_hop hN _ rfl rfl rfl rfl _ rfl rfl rfl rfl rfl rfl rfl _ (fun i => zeros_apply _ _ i), s22]
  rfl

theorem s34 : cur (N := 100000) (C := 128) (val_main_v34 (F := Ideal) x0 x1 x2) = scale (hop (ρR x1) (LR x2) (scale (scale (hop (ρR x1) (LR x2) (scale (cur x0) (nR x2))) (nR x2)) (nR x2))) (nR x2) := by
  unfold val_main_v34 val_main_v33
  rw [cur_scale, s32]
  rfl

theorem s38 : cur (N := 100000) (C := 128) (val_main_v38 (F := Ideal) x0 x1 x2 x3 x4) = lin (scale (hop (ρR x1) (LR x2) (scale (scale (hop (ρR x1) (LR x2) (scale (cur x0) (nR x2))) (nR x2)) (nR x2))) (nR x2)) (cur x3) (cur1 x4) := by
  unfold val_main_v38 val_main_v35 val_main_v37 val_main_v36
  rw [cur_lin dot_S100000x128_S128x128_S100000x128_1_0_0_1_n_n rfl, s34]

theorem s39 : cur (N := 100000) (C := 128) (val_main_v39 (F := Ideal) x0 x1 x2 x3 x4) = relu (lin (scale (hop (ρR x1) (LR x2) (scale (scale (hop (ρR x1) (LR x2) (scale (cur x0) (nR x2))) (nR x2)) (nR x2))) (nR x2)) (cur x3) (cur1 x4)) := by
  unfold val_main_v39 val_main_call1_v0 val_main_call1_cst
  rw [cur_relu _ _ (fun i => zeros_apply _ _ i), s38]

theorem s41 : cur (N := 100000) (C := 128) (val_main_v41 (F := Ideal) x0 x1 x2 x3 x4) = scale (relu (lin (scale (hop (ρR x1) (LR x2) (scale (scale (hop (ρR x1) (LR x2) (scale (cur x0) (nR x2))) (nR x2)) (nR x2))) (nR x2)) (cur x3) (cur1 x4))) (nR x2) := by
  unfold val_main_v41 val_main_v40
  rw [cur_scale, s39]
  rfl

theorem s51 : cur (N := 100000) (C := 128) (val_main_v51 (F := Ideal) x0 x1 x2 x3 x4) = hop (ρR x1) (LR x2) (scale (relu (lin (scale (hop (ρR x1) (LR x2) (scale (scale (hop (ρR x1) (LR x2) (scale (cur x0) (nR x2))) (nR x2)) (nR x2))) (nR x2)) (cur x3) (cur1 x4))) (nR x2)) := by
  unfold val_main_v51 val_main_v48 val_main_v49 val_main_cst_9
  rw [cur_hop hN _ rfl rfl rfl rfl _ rfl rfl rfl rfl rfl rfl rfl _ (fun i => zeros_apply _ _ i), s41]
  rfl

theorem s53 : cur (N := 100000) (C := 128) (val_main_v53 (F := Ideal) x0 x1 x2 x3 x4) = scale (hop (ρR x1) (LR x2) (scale (relu (lin (scale (hop (ρR x1) (LR x2) (scale (scale (hop (ρR x1) (LR x2) (scale (cur x0) (nR x2))) (nR x2)) (nR x2))) (nR x2)) (cur x3) (cur1 x4))) (nR x2))) (nR x2) := by
  unfold val_main_v53 val_main_v52
  rw [cur_scale, s51]
  rfl

theorem s55 : cur (N := 100000) (C := 128) (val_main_v55 (F := Ideal) x0 x1 x2 x3 x4) = scale (scale (hop (ρR x1) (LR x2) (scale (relu (lin (scale (hop (ρR x1) (LR x2) (scale (scale (hop (ρR x1) (LR x2) (scale (cur x0) (nR x2))) (nR x2)) (nR x2))) (nR x2)) (cur x3) (cur1 x4))) (nR x2))) (nR x2)) (nR x2) := by
  unfold val_main_v55 val_main_v54
  rw [cur_scale, s53]
  rfl

theorem s65 : cur (N := 100000) (C := 128) (val_main_v65 (F := Ideal) x0 x1 x2 x3 x4) = hop (ρR x1) (LR x2) (scale (scale (hop (ρR x1) (LR x2) (scale (relu (lin (scale (hop (ρR x1) (LR x2) (scale (scale (hop (ρR x1) (LR x2) (scale (cur x0) (nR x2))) (nR x2)) (nR x2))) (nR x2)) (cur x3) (cur1 x4))) (nR x2))) (nR x2)) (nR x2)) := by
  unfold val_main_v65 val_main_v62 val_main_v63 val_main_cst_12
  rw [cur_hop hN _ rfl rfl rfl rfl _ rfl rfl rfl rfl rfl rfl rfl _ (fun i => zeros_apply _ _ i), s55]
  rfl

theorem s67 : cur (N := 100000) (C := 128) (val_main_v67 (F := Ideal) x0 x1 x2 x3 x4) = scale (hop (ρR x1) (LR x2) (scale (scale (hop (ρR x1) (LR x2) (scale (relu (lin (scale (hop (ρR x1) (LR x2) (scale (scale (hop (ρR x1) (LR x2) (scale (cur x0) (nR x2))) (nR x2)) (nR x2))) (nR x2)) (cur x3) (cur1 x4))) (nR x2))) (nR x2)) (nR x2))) (nR x2) := by
  unfold val_main_v67 val_main_v66
  rw [cur_scale, s65]
  rfl

theorem s71 : cur (N := 100000) (C := 128) (val_main_v71 (F := Ideal) x0 x1 x2 x3 x4 x5 x6) = lin (scale (hop (ρR x1) (LR x2) (scale (scale (hop (ρR x1) (LR x2) (scale (relu (lin (scale (hop (ρR x1) (LR x2) (scale (scale (hop (ρR x1) (LR x2) (scale (cur x0) (nR x2))) (nR x2)) (nR x2))) (nR x2)) (cur x3) (cur1 x4))) (nR x2))) (nR x2)) (nR x2))) (nR x2)) (cur x5) (cur1 x6) := by
  unfold val_main_v71 val_main_v68 val_main_v70 val_main_v69
  rw [cur_lin dot_S100000x128_S128x128_S100000x128_1_0_0_1_n_n rfl, s67]

theorem s72 : cur (N := 100000) (C := 128) (val_main_v72 (F := Ideal) x0 x1 x2 x3 x4 x5 x6) = relu (lin (scale (hop (ρR x1) (LR x2) (scale (scale (hop (ρR x1) (LR x2) (scale (relu (lin (scale (hop (ρR x1) (LR x2) (scale (scale (hop (ρR x1) (LR x2) (scale (cur x0) (nR x2))) (nR x2)) (nR x2))) (nR x2)) (cur x3) (cur1 x4))) (nR x2))) (nR x2)) (nR x2))) (nR x2)) (cur x5) (cur1 x6)) := by
  unfold val_main_v72 val_main_call2_v0 val_main_call2_cst
  rw [cur_relu _ _ (fun i => zeros_apply _ _ i), s71]

theorem s74 : cur (N := 100000) (C := 128) (val_main_v74 (F := Ideal) x0 x1 x2 x3 x4 x5 x6) = scale (relu (lin (scale (hop (ρR x1) (LR x2) (scale (scale (hop (ρR x1) (LR x2) (scale (relu (lin (scale (hop (ρR x1) (LR x2) (scale (scale (hop (ρR x1) (LR x2) (scale (cur x0) (nR x2))) (nR x2)) (nR x2))) (nR x2)) (cur x3) (cur1 x4))) (nR x2))) (nR x2)) (nR x2))) (nR x2)) (cur x5) (cur1 x6))) (nR x2) := by
  unfold val_main_v74 val_main_v73
  rw [cur_scale, s72]
  rfl

theorem s84 : cur (N := 100000) (C := 128) (val_main_v84 (F := Ideal) x0 x1 x2 x3 x4 x5 x6) = hop (ρR x1) (LR x2) (scale (relu (lin (scale (hop (ρR x1) (LR x2) (scale (scale (hop (ρR x1) (LR x2) (scale (relu (lin (scale (hop (ρR x1) (LR x2) (scale (scale (hop (ρR x1) (LR x2) (scale (cur x0) (nR x2))) (nR x2)) (nR x2))) (nR x2)) (cur x3) (cur1 x4))) (nR x2))) (nR x2)) (nR x2))) (nR x2)) (cur x5) (cur1 x6))) (nR x2)) := by
  unfold val_main_v84 val_main_v81 val_main_v82 val_main_cst_15
  rw [cur_hop hN _ rfl rfl rfl rfl _ rfl rfl rfl rfl rfl rfl rfl _ (fun i => zeros_apply _ _ i), s74]
  rfl

theorem s86 : cur (N := 100000) (C := 128) (val_main_v86 (F := Ideal) x0 x1 x2 x3 x4 x5 x6) = scale (hop (ρR x1) (LR x2) (scale (relu (lin (scale (hop (ρR x1) (LR x2) (scale (scale (hop (ρR x1) (LR x2) (scale (relu (lin (scale (hop (ρR x1) (LR x2) (scale (scale (hop (ρR x1) (LR x2) (scale (cur x0) (nR x2))) (nR x2)) (nR x2))) (nR x2)) (cur x3) (cur1 x4))) (nR x2))) (nR x2)) (nR x2))) (nR x2)) (cur x5) (cur1 x6))) (nR x2))) (nR x2) := by
  unfold val_main_v86 val_main_v85
  rw [cur_scale, s84]
  rfl

theorem s88 : cur (N := 100000) (C := 128) (val_main_v88 (F := Ideal) x0 x1 x2 x3 x4 x5 x6) = scale (scale (hop (ρR x1) (LR x2) (scale (relu (lin (scale (hop (ρR x1) (LR x2) (scale (scale (hop (ρR x1) (LR x2) (scale (relu (lin (scale (hop (ρR x1) (LR x2) (scale (scale (hop (ρR x1) (LR x2) (scale (cur x0) (nR x2))) (nR x2)) (nR x2))) (nR x2)) (cur x3) (cur1 x4))) (nR x2))) (nR x2)) (nR x2))) (nR x2)) (cur x5) (cur1 x6))) (nR x2))) (nR x2)) (nR x2) := by
  unfold val_main_v88 val_main_v87
  rw [cur_scale, s86]
  rfl

theorem s98 : cur (N := 100000) (C := 128) (val_main_v98 (F := Ideal) x0 x1 x2 x3 x4 x5 x6) = hop (ρR x1) (LR x2) (scale (scale (hop (ρR x1) (LR x2) (scale (relu (lin (scale (hop (ρR x1) (LR x2) (scale (scale (hop (ρR x1) (LR x2) (scale (relu (lin (scale (hop (ρR x1) (LR x2) (scale (scale (hop (ρR x1) (LR x2) (scale (cur x0) (nR x2))) (nR x2)) (nR x2))) (nR x2)) (cur x3) (cur1 x4))) (nR x2))) (nR x2)) (nR x2))) (nR x2)) (cur x5) (cur1 x6))) (nR x2))) (nR x2)) (nR x2)) := by
  unfold val_main_v98 val_main_v95 val_main_v96 val_main_cst_18
  rw [cur_hop hN _ rfl rfl rfl rfl _ rfl rfl rfl rfl rfl rfl rfl _ (fun i => zeros_apply _ _ i), s88]
  rfl

theorem s100 : cur (N := 100000) (C := 128) (val_main_v100 (F := Ideal) x0 x1 x2 x3 x4 x5 x6) = scale (hop (ρR x1) (LR x2) (scale (scale (hop (ρR x1) (LR x2) (scale (relu (lin (scale (hop (ρR x1) (LR x2) (scale (scale (hop (ρR x1) (LR x2) (scale (relu (lin (scale (hop (ρR x1) (LR x2) (scale (scale (hop (ρR x1) (LR x2) (scale (cur x0) (nR x2))) (nR x2)) (nR x2))) (nR x2)) (cur x3) (cur1 x4))) (nR x2))) (nR x2)) (nR x2))) (nR x2)) (cur x5) (cur1 x6))) (nR x2))) (nR x2)) (nR x2))) (nR x2) := by
  unfold val_main_v100 val_main_v99
  rw [cur_scale, s98]
  rfl

theorem s104 : cur (N := 100000) (C := 40) (val_main_v104 (F := Ideal) x0 x1 x2 x3 x4 x5 x6 x7 x8) = lin (scale (hop (ρR x1) (LR x2) (scale (scale (hop (ρR x1) (LR x2) (scale (relu (lin (scale (hop (ρR x1) (LR x2) (scale (scale (hop (ρR x1) (LR x2) (scale (relu (lin (scale (hop (ρR x1) (LR x2) (scale (scale (hop (ρR x1) (LR x2) (scale (cur x0) (nR x2))) (nR x2)) (nR x2))) (nR x2)) (cur x3) (cur1 x4))) (nR x2))) (nR x2)) (nR x2))) (nR x2)) (cur x5) (cur1 x6))) (nR x2))) (nR x2)) (nR x2))) (nR x2)) (cur x7) (cur1 x8) := by
  unfold val_main_v104 val_main_v101 val_main_v103 val_main_v102
  rw [cur_lin dot_S100000x128_S128x40_S100000x40_1_0_0_1_n_n rfl, s100]

/-- The reference's result, read row by column, is the network in the reference's arrangement. -/
theorem value : cur (N := 100000) (C := 40) (val_main_v104 (F := Ideal) x0 x1 x2 x3 x4 x5 x6 x7 x8)
    = netR (ρR x1) (LR x2) (nR x2) (cur x0) (cur x3) (cur1 x4) (cur x5) (cur1 x6) (cur x7) (cur1 x8) :=
  s104 x0 x1 x2 x3 x4 x5 x6 x7 x8

end Cert.ReferenceIdeal.RefValue

end
-- ==== Proof.LibGraphConvLaws.lean ====
/-
  The two arrangements of the three-layer graph convolution agree when the data are real numbers.

  Merging two consecutive scalings into one scaling by n·n is associativity of multiplication
  and holds for all extended reals.  Moving the weight of the last layer across the two hops is
  distributivity, which fails at infinities, so it is proved for real data: both sides are
  the coercion of a real expression, and over the reals the sum over the contracted index
  commutes with the two edge sums.  Each layer keeps real data real, so the last layer
  receives real data.
-/
import proofs.«128273_j63677185130847_2_alg».proof.Proof.LibGraphConvSpec
import Mathlib.Data.EReal.Basic
import Mathlib.Data.EReal.Operations
import Mathlib.Data.EReal.Inv
import Mathlib.Algebra.BigOperators.Group.Finset.Basic
import Mathlib.Algebra.BigOperators.Group.Finset.Sigma
import Mathlib.Algebra.BigOperators.Ring.Finset
import Mathlib.Tactic.Ring

noncomputable section

open scoped BigOperators

namespace Cert.Spec

variable {ι κ α β : Type}

/-! ### Merging two scalings: associativity, valid for all extended reals -/

theorem scale_scale (h : ι → α → EReal) (n m : ι → EReal) :
    scale (scale h n) m = scale h (fun v => n v * m v) := by
  funext v c
  show h v c * n v * m v = h v c * (n v * m v)
  exact mul_assoc (h v c) (n v) (m v)

theorem layerK_eq_layerR [Fintype α] (ρ : κ → ι) (L : ι → Finset κ) (n : ι → EReal)
    (x : ι → α → EReal) (W : α → β → EReal) (b : β → EReal) :
    layerK ρ L n x W b = layerR ρ L n x W b := by
  unfold layerK layerR
  rw [scale_scale]

/-! ### Real values are closed under the operations -/

theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

theorem real_sum {γ : Type} (s : Finset γ) (g : γ → EReal)
    (hg : ∀ i ∈ s, ∃ r : ℝ, g i = (r : EReal)) : ∃ r : ℝ, ∑ i ∈ s, g i = (r : EReal) :=
  Finset.sum_induction g (fun a => ∃ r : ℝ, a = (r : EReal)) (fun _ _ ha hb => real_add ha hb)
    ⟨0, EReal.coe_zero.symm⟩ hg

theorem coe_max_zero (r : ℝ) : ((max r 0 : ℝ) : EReal) = max (r : EReal) 0 := by
  rw [EReal.coe_strictMono.monotone.map_max, EReal.coe_zero]

theorem real_max_zero {a : EReal} (ha : ∃ r : ℝ, a = (r : EReal)) :
    ∃ r : ℝ, max a 0 = (r : EReal) := by
  obtain ⟨r, rfl⟩ := ha
  exact ⟨max r 0, (coe_max_zero r).symm⟩

theorem hop_real (ρ : κ → ι) (L : ι → Finset κ) (h : ι → α → EReal)
    (hh : ∀ v c, ∃ r : ℝ, h v c = (r : EReal)) :
    ∀ v c, ∃ r : ℝ, hop ρ L h v c = (r : EReal) :=
  fun v c => real_sum (L v) (fun e => h (ρ e) c) (fun e _ => hh (ρ e) c)

theorem scale_real (h : ι → α → EReal) (n : ι → EReal)
    (hh : ∀ v c, ∃ r : ℝ, h v c = (r : EReal)) (hn : ∀ v, ∃ r : ℝ, n v = (r : EReal)) :
    ∀ v c, ∃ r : ℝ, scale h n v c = (r : EReal) :=
  fun v c => real_mul (hh v c) (hn v)

theorem lin_real [Fintype α] (h : ι → α → EReal) (W : α → β → EReal) (b : β → EReal)
    (hh : ∀ v c, ∃ r : ℝ, h v c = (r : EReal)) (hW : ∀ k q, ∃ r : ℝ, W k q = (r : EReal))
    (hb : ∀ q, ∃ r : ℝ, b q = (r : EReal)) :
    ∀ v q, ∃ r : ℝ, lin h W b v q = (r : EReal) :=
  fun v q =>
    real_add (real_sum Finset.univ (fun k => h v k * W k q) (fun k _ => real_mul (hh v k) (hW k q)))
      (hb q)

theorem relu_real (h : ι → α → EReal) (hh : ∀ v c, ∃ r : ℝ, h v c = (r : EReal)) :
    ∀ v c, ∃ r : ℝ, relu h v c = (r : EReal) :=
  fun v c => real_max_zero (hh v c)

/-- a layer keeps real data real -/
theorem layerR_real [Fintype α] (ρ : κ → ι) (L : ι → Finset κ) (n : ι → EReal)
    (x : ι → α → EReal) (W : α → β → EReal) (b : β → EReal)
    (hn : ∀ v, ∃ r : ℝ, n v = (r : EReal)) (hx : ∀ v c, ∃ r : ℝ, x v c = (r : EReal))
    (hW : ∀ k q, ∃ r : ℝ, W k q = (r : EReal)) (hb : ∀ q, ∃ r : ℝ, b q = (r : EReal)) :
    ∀ v q, ∃ r : ℝ, layerR ρ L n x W b v q = (r : EReal) := by
  unfold layerR
  exact relu_real _ (lin_real _ W b
    (scale_real _ n (hop_real ρ L _ (scale_real _ n (scale_real _ n
      (hop_real ρ L _ (scale_real x n hx hn)) hn) hn)) hn) hW hb)

/-! ### Moving the weight across the hops: distributivity, valid for real data -/

/-- the coercion of the reals commutes with finite sums -/
theorem coe_sum {γ : Type} (s : Finset γ) (g : γ → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- the identity over the reals: the sum over the contracted index commutes with both hops -/
theorem real_last [Fintype α] (ρ : κ → ι) (L : ι → Finset κ) (nr : ι → ℝ) (xr : ι → α → ℝ)
    (Wr : α → β → ℝ) (v : ι) (q : β) :
    (∑ e ∈ L v, (∑ e' ∈ L (ρ e), ∑ k, xr (ρ e') k * nr (ρ e') * Wr k q) * (nr (ρ e) * nr (ρ e)))
        * nr v
      = ∑ k, (∑ e ∈ L v, (∑ e' ∈ L (ρ e), xr (ρ e') k * nr (ρ e')) * nr (ρ e) * nr (ρ e))
          * nr v * Wr k q := by
  simp only [Finset.sum_mul]
  conv_rhs => rw [Finset.sum_comm]
  refine Finset.sum_congr rfl (fun e _ => ?_)
  conv_rhs => rw [Finset.sum_comm]
  refine Finset.sum_congr rfl (fun e' _ => ?_)
  refine Finset.sum_congr rfl (fun k _ => ?_)
  ring

theorem lastK_eq_lastR [Fintype α] (ρ : κ → ι) (L : ι → Finset κ) (n : ι → EReal)
    (x : ι → α → EReal) (W : α → β → EReal) (b : β → EReal)
    (hn : ∀ v, ∃ r : ℝ, n v = (r : EReal)) (hx : ∀ v c, ∃ r : ℝ, x v c = (r : EReal))
    (hW : ∀ k q, ∃ r : ℝ, W k q = (r : EReal)) :
    lastK ρ L n x W b = lastR ρ L n x W b := by
  choose nr hnr using hn
  choose xr hxr using hx
  choose Wr hWr using hW
  obtain rfl : n = fun v => (nr v : EReal) := funext hnr
  obtain rfl : x = fun v c => (xr v c : EReal) := funext (fun v => funext (hxr v))
  obtain rfl : W = fun k q => (Wr k q : EReal) := funext (fun k => funext (hWr k))
  funext v q
  show (∑ e ∈ L v, (∑ e' ∈ L (ρ e),
          ((∑ k, (xr (ρ e') k : EReal) * (nr (ρ e') : EReal) * (Wr k q : EReal)) + 0))
            * ((nr (ρ e) : EReal) * (nr (ρ e) : EReal))) * (nr v : EReal) + b q
      = (∑ k, (∑ e ∈ L v, (∑ e' ∈ L (ρ e), (xr (ρ e') k : EReal) * (nr (ρ e') : EReal))
            * (nr (ρ e) : EReal) * (nr (ρ e) : EReal)) * (nr v : EReal) * (Wr k q : EReal)) + b q
  congr 1
  simp only [add_zero, ← EReal.coe_mul, ← coe_sum]
  exact congrArg Real.toEReal (real_last ρ L nr xr Wr v q)

/-! ### The two networks agree on real data -/

theorem netK_eq_netR [Fintype α] (ρ : κ → ι) (L : ι → Finset κ) (n : ι → EReal)
    (f : ι → α → EReal) (W1 : α → α → EReal) (b1 : α → EReal) (W2 : α → α → EReal)
    (b2 : α → EReal) (W3 : α → β → EReal) (b3 : β → EReal)
    (hn : ∀ v, ∃ r : ℝ, n v = (r : EReal)) (hf : ∀ v c, ∃ r : ℝ, f v c = (r : EReal))
    (hW1 : ∀ k q, ∃ r : ℝ, W1 k q = (r : EReal)) (hb1 : ∀ q, ∃ r : ℝ, b1 q = (r : EReal))
    (hW2 : ∀ k q, ∃ r : ℝ, W2 k q = (r : EReal)) (hb2 : ∀ q, ∃ r : ℝ, b2 q = (r : EReal))
    (hW3 : ∀ k q, ∃ r : ℝ, W3 k q = (r : EReal)) :
    netK ρ L n f W1 b1 W2 b2 W3 b3 = netR ρ L n f W1 b1 W2 b2 W3 b3 := by
  unfold netK netR
  rw [layerK_eq_layerR, layerK_eq_layerR]
  exact lastK_eq_lastR ρ L n _ W3 b3 hn
    (layerR_real ρ L n _ W2 b2 hn (layerR_real ρ L n f W1 b1 hn hf hW1 hb1) hW2 hb2) hW3

end Cert.Spec
-- ==== Proof.Finite.lean ====
/-
  From the precondition "every float argument satisfies all(|x| < +∞)" to
  "every entry of every float argument is a real number".

  At the ideal instance a float is an extended real, the pattern 0x7F800000 denotes +∞, and
  |x| is max x (-x). So |x| < +∞ excludes exactly x = +∞ and x = -∞, and what is left of the
  extended reals is the image of ℝ. The precondition is a conjunction of seven such statements,
  each a reduction by ∧ over a whole array into a single bit; a reduction by ∧ that is 1 had
  a 1 at every index.
-/
import proofs.«128273_j63677185130847_2_alg».proof.Defs
import Idealize.ShloMosaic.Lib.ReduceAll
import Idealize.ShloMosaic.Lib.ValueIdx
import Idealize.ShloMosaic.PureOps.Ideal

open Idealize.ShloMosaic

namespace Cert.Finite

open Cert.Pre_finite_inputs

/-- A shape of rank 0 has one index. -/
local instance subsingleton_scalar_idx : Subsingleton S_.Idx := ⟨fun a b => funext fun d => d.elim0⟩

/-- The f32 pattern with all-ones exponent and zero significand denotes +∞. -/
theorem inf_eq : Ideal.ofBits .f32 0x7F800000#32 = (⊤ : EReal) := by
  simp [Ideal.ofBits, Ideal.ieee]

/-- For an extended real x, max x (-x) < +∞ forces x to be a real:
    at x = -∞ and at x = +∞ the maximum is +∞. -/
theorem real_of_cmp (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | coe r => exact ⟨r, rfl⟩
  | top => simp [Ideal.cmp] at h

/-- One conjunct, at any shape: if the ∧-reduction of the bits |a i| < +∞ over the whole
    array is 1 then every a i is a real. -/
theorem all_real {s : Shape} {axes : List (Fin s.rank)} (hb : S_.BroadcastsInDim s (![] : Fin 0 → Fin s.rank))
    (hr : s.ReducesTo axes S_) (hu : 0 < S_.numel) (a : FVec Ideal s .f32)
    (e : Host.reduce IntOp.andi
          (cmpf .olt (Host.absf a) (broadcastInDim s ![] hb (constant S_ .f32 0x7F800000#32)))
          (constantI S_ 1 1#1) hr hu ValueIdx.ix0 = 1#1) :
    ∀ i, ∃ r : ℝ, a i = (r : EReal) := fun i =>
  real_of_cmp (a i) (Host.reduce_andi_all _ _ hr hu ValueIdx.ix0 e i)

variable [hPre_finite_inputs : Cert.Pre_finite_inputs.Facts]

/-- The precondition, at any nine arrays: every entry of each of the seven float arrays is a real.
    The two integer arrays are unconstrained. -/
theorem reals (a0 : FVec Ideal S100000x128 .f32) (a1 a2 : IVec S1600000 32) (a3 : FVec Ideal S128x128 .f32)
    (a4 : FVec Ideal S128 .f32) (a5 : FVec Ideal S128x128 .f32) (a6 : FVec Ideal S128 .f32)
    (a7 : FVec Ideal S128x40 .f32) (a8 : FVec Ideal S40 .f32)
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a3 i = (r : EReal)) ∧ (∀ i, ∃ r : ℝ, a4 i = (r : EReal))
    ∧ (∀ i, ∃ r : ℝ, a5 i = (r : EReal)) ∧ (∀ i, ∃ r : ℝ, a6 i = (r : EReal)) ∧ (∀ i, ∃ r : ℝ, a7 i = (r : EReal))
    ∧ (∀ i, ∃ r : ℝ, a8 i = (r : EReal)) := by
  -- the value at the single index of the rank-0 result: a six-fold ∧ of seven reductions
  have h0 := congrFun h ValueIdx.ix0
  dsimp only [Cert.Pre_finite_inputs.fn, Cert.Pre_finite_inputs.fn_part1, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨all_real _ _ _ a0 e0, all_real _ _ _ a3 e3, all_real _ _ _ a4 e4, all_real _ _ _ a5 e5,
    all_real _ _ _ a6 e6, all_real _ _ _ a7 e7, all_real _ _ _ a8 e8⟩

/-- The same, read off the first program's precondition at a device. -/
theorem of_pre_kernel (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal)) :=
  reals _ _ _ _ _ _ _ _ _ (h c)

/-- The same, read off the second program's precondition at a device. -/
theorem of_pre_reference (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, ∃ r : ℝ, m ((c.tc : Thread Cert.ReferenceIdeal.nD Cert.ReferenceIdeal.τ).loc Cert.ReferenceIdeal.main_arg0) i = (r : EReal))
    ∧ (∀ i, ∃ r : ℝ, m ((c.tc : Thread Cert.ReferenceIdeal.nD Cert.ReferenceIdeal.τ).loc Cert.ReferenceIdeal.main_arg3) i = (r : EReal))
    ∧ (∀ i, ∃ r : ℝ, m ((c.tc : Thread Cert.ReferenceIdeal.nD Cert.ReferenceIdeal.τ).loc Cert.ReferenceIdeal.main_arg4) i = (r : EReal))
    ∧ (∀ i, ∃ r : ℝ, m ((c.tc : Thread Cert.ReferenceIdeal.nD Cert.ReferenceIdeal.τ).loc Cert.ReferenceIdeal.main_arg5) i = (r : EReal))
    ∧ (∀ i, ∃ r : ℝ, m ((c.tc : Thread Cert.ReferenceIdeal.nD Cert.ReferenceIdeal.τ).loc Cert.ReferenceIdeal.main_arg6) i = (r : EReal))
    ∧ (∀ i, ∃ r : ℝ, m ((c.tc : Thread Cert.ReferenceIdeal.nD Cert.ReferenceIdeal.τ).loc Cert.ReferenceIdeal.main_arg7) i = (r : EReal))
    ∧ (∀ i, ∃ r : ℝ, m ((c.tc : Thread Cert.ReferenceIdeal.nD Cert.ReferenceIdeal.τ).loc Cert.ReferenceIdeal.main_arg8) i = (r : EReal)) :=
  reals _ _ _ _ _ _ _ _ _ (h c)

end Cert.Finite
-- ==== Proof.Bridge.lean ====
/-
  The two results are one array.  Read row by column, the kernel's result is the network in the kernel's
  arrangement and the reference's the network in the reference's, over the same decoded graph: the same read rows
  (the source indices wrapped and clamped), the same landing sets (the destination indices), the same node scale.
  The node scale is a real number at every node (the in-degree is a count, clamped below at one), and under the
  precondition every entry of the features, the weights and the biases is a real number; over the reals the two
  arrangements are one function: the interior scalings merge by associativity, and the last layer's weight moves
  across the hops by distributing a finite sum of products.
-/
import proofs.«128273_j63677185130847_2_alg».proof.Proof.KernelValue
import proofs.«128273_j63677185130847_2_alg».proof.Proof.RefValue
import proofs.«128273_j63677185130847_2_alg».proof.Proof.LibGraphConvLaws
import proofs.«128273_j63677185130847_2_alg».proof.Proof.Finite
import proofs.«128273_j63677185130847_2_alg».proof.Proof.Gen.Pre_finite_inputs

set_option maxRecDepth 16384

noncomputable section

open scoped BigOperators

namespace Cert.Bridge

open Idealize.ShloMosaic Idealize.ShloMosaic.TcCoe Idealize.ShloMosaic.ValueIdx Idealize.SL.Sem
open Cert.Spec Cert.HostRead Cert.GatherRows Cert.ScatterRows
open Cert.KernelIdeal (nD τ sig)

/-- a matrix is determined by its reads row by column -/
theorem cur_inj {N C : ℕ} {X Y : (⟨2, ![N, C]⟩ : Shape).Idx → EReal} (h : cur X = cur Y) : X = Y := by
  funext i
  obtain ⟨p, q, rfl⟩ : ∃ (p : Fin N) (q : Fin C), i = ix2 p q := ⟨i 0, i 1, eq_ix2 i⟩
  exact congrFun (congrFun h p) q

/-! ## One graph, one scale -/

theorem ρ_eq (x1 : IVec Cert.KernelIdeal.S1600000 32) :
    Cert.ReferenceIdeal.RefValue.ρR x1 = Cert.KernelIdeal.KValue.ρK x1 := by
  unfold Cert.ReferenceIdeal.RefValue.ρR Cert.KernelIdeal.KValue.ρK Cert.KernelIdeal.KHost.srcCol
    Cert.ReferenceIdeal.Read.val_main_v14 Cert.ReferenceIdeal.Read.val_main_v13 Cert.ReferenceIdeal.Read.val_main_v10
    Cert.ReferenceIdeal.Read.val_main_v12 Cert.ReferenceIdeal.Read.val_main_v9 Cert.ReferenceIdeal.Read.val_main_v11
    Cert.ReferenceIdeal.Read.val_main_c Cert.ReferenceIdeal.Read.val_main_c_2
  rfl

theorem L_eq (x2 : IVec Cert.KernelIdeal.S1600000 32) :
    Cert.ReferenceIdeal.RefValue.LR x2 = Cert.KernelIdeal.KValue.LK x2 := by
  unfold Cert.ReferenceIdeal.RefValue.LR Cert.KernelIdeal.KValue.LK Cert.KernelIdeal.KHost.dstCol
    Cert.ReferenceIdeal.Read.val_main_v2
  rfl

theorem n_eq (x2 : IVec Cert.KernelIdeal.S1600000 32) :
    Cert.ReferenceIdeal.RefValue.nR x2 = Cert.KernelIdeal.KValue.nK x2 := by
  unfold Cert.ReferenceIdeal.RefValue.nR Cert.KernelIdeal.KValue.nK Cert.KernelIdeal.KHost.ncol
    Cert.KernelIdeal.KHost.ncolOf Cert.KernelIdeal.KHost.clipOf Cert.KernelIdeal.KHost.degOf Cert.KernelIdeal.KHost.dstCol
    Cert.ReferenceIdeal.Read.val_main_v6 Cert.ReferenceIdeal.Read.val_main_v5 Cert.ReferenceIdeal.Read.val_main_v4
    Cert.ReferenceIdeal.Read.val_main_call0_v1 Cert.ReferenceIdeal.Read.val_main_call0_v0 Cert.ReferenceIdeal.Read.val_main_cst_1
    Cert.ReferenceIdeal.Read.val_main_v3 Cert.ReferenceIdeal.Read.val_main_v1 Cert.ReferenceIdeal.Read.val_main_cst_0
    Cert.ReferenceIdeal.Read.val_main_v2 Cert.ReferenceIdeal.Read.val_main_v0 Cert.ReferenceIdeal.Read.val_main_cst
  rfl

/-- The node scale at a node: the inverse square root of the number of edges landing on it, clamped below at one. -/
theorem nK_eq (a2 : IVec Cert.KernelIdeal.S1600000 32) (v : Fin 100000) :
    Cert.KernelIdeal.KValue.nK a2 v
      = Ideal.rsqrt (max (1 : EReal) (0 + ∑ _e ∈ landing (Cert.KernelIdeal.KHost.dstCol a2) v.val, (1 : EReal))) := by
  have hrs : ∀ (D : FVec Ideal Cert.KernelIdeal.S100000 .f32) (i : Cert.KernelIdeal.S100000.Idx),
      Host.rsqrt D i = Ideal.rsqrt (D i) := fun _ _ => rfl
  unfold Cert.KernelIdeal.KValue.nK Cert.KernelIdeal.KHost.ncol Cert.KernelIdeal.KHost.ncolOf
    Cert.KernelIdeal.KHost.clipOf Cert.KernelIdeal.KHost.degOf
  rw [Cert.HostBroadcasts.col_apply, hrs, maximumf_apply, scatterAdd_vec_apply _ rfl rfl rfl rfl, zeros_apply]
  simp only [Cert.HostBroadcasts.scalar_apply, constant_apply, Ideal.ofBits_one_f32, id]

theorem nK_real (a2 : IVec Cert.KernelIdeal.S1600000 32) (v : Fin 100000) :
    ∃ r : ℝ, Cert.KernelIdeal.KValue.nK a2 v = (r : EReal) := by
  rw [nK_eq]
  exact rsqrt_clip_real _

/-! ## The two results -/

open Cert.KernelIdeal.KHost in
/-- Under the precondition the reference's result array, computed from the kernel's arguments, is the array the
    kernel's run ends with. -/
theorem result_eq (m : (ℓ : Loc nD τ sig) → Buf (Elt Ideal) ℓ) (g : Dev nD → PrngReg) (hpre : Cert.Pre_KernelIdeal m)
    (c : Dev nD) :
    Cert.ReferenceIdeal.Read.val_main_v104 (F := Ideal) (A0 m c) (A1 m c) (A2 m c) (A3 m c) (A4 m c) (A5 m c) (A6 m c)
        (A7 m c) (A8 m c)
      = Cert.KernelIdeal.Gen.W8 (F := Ideal) m g c (Proc.devRef .tc Cert.KernelIdeal.main_v88) := by
  apply cur_inj (N := 100000) (C := 40)
  rw [Cert.ReferenceIdeal.RefValue.value, Cert.KernelIdeal.KValue.value, ρ_eq, L_eq, n_eq]
  obtain ⟨h0, h3, h4, h5, h6, h7, h8⟩ := Cert.Finite.of_pre_kernel m hpre c
  exact (netK_eq_netR _ _ _ _ _ _ _ _ _ _ (nK_real _) (fun v c => h0 _) (fun k q => h3 _) (fun q => h4 _)
    (fun k q => h5 _) (fun q => h6 _) (fun k q => h7 _)).symm

end Cert.Bridge

end
-- ==== Proof.lean ====
/-
  The certificate of a three-layer simplified graph convolution (SGC) over a graph of 100000 nodes and 1600000
  edges.  With `n` the inverse square root of each node's in-degree clamped below at one, and one hop `A` the sum,
  over the edges landing on a node, of the rows the edges read, the reference computes per layer
  `relu((n · A(n · n · A(n · x))) W + b)` with the interior scalings applied one after the other, and in the last
  layer `(n · A(n · n · A(n · x))) W₃ + b₃`.  The kernel computes the affine maps in three row-blocked pallas_calls
  (20 blocks of 5000 rows; the matrix product accumulated from zero, the row scaling fused in front of it), merges
  the two interior scalings into one by `n · n`, and in the last layer applies `W₃` BEFORE the two hops, on 40 columns
  instead of 128, adding `b₃` at the end.

  At the ideal instance floats are extended reals.  The merged scalings agree with the separate ones by
  associativity, for all extended reals.  Moving `W₃` across the hops distributes a finite sum over products,
  which fails at the infinities, so there the precondition is used: every float input is finite, the node scale is a
  real at every node (an in-degree is a count), hence every intermediate entry is a real, and over the reals the
  two arrangements are one function.

  The frames are the generated ones (the reference's is its generated run with the result dropped); the idealization
  rewrote nothing, so `preserves` is trivial; `algebraic` puts the kernel's run, with its result named by the fold
  through @main's eight segments, beside the reference's generated run, and the two result arrays are equal.
-/
import proofs.«128273_j63677185130847_2_alg».proof.Defs
import proofs.«128273_j63677185130847_2_alg».proof.Proof.Gen.Kernel
import proofs.«128273_j63677185130847_2_alg».proof.Proof.Gen.Kernel.Skeleton
import proofs.«128273_j63677185130847_2_alg».proof.Proof.Gen.Kernel.Launch
import proofs.«128273_j63677185130847_2_alg».proof.Proof.Gen.Kernel.Points
import proofs.«128273_j63677185130847_2_alg».proof.Proof.Gen.Kernel.Frame
import proofs.«128273_j63677185130847_2_alg».proof.Proof.Gen.KernelIdeal
import proofs.«128273_j63677185130847_2_alg».proof.Proof.Gen.KernelIdeal.Skeleton
import proofs.«128273_j63677185130847_2_alg».proof.Proof.Gen.KernelIdeal.Launch
import proofs.«128273_j63677185130847_2_alg».proof.Proof.Gen.KernelIdeal.Points
import proofs.«128273_j63677185130847_2_alg».proof.Proof.Gen.KernelIdeal.Frame
import proofs.«128273_j63677185130847_2_alg».proof.Proof.Gen.ReferenceIdeal
import proofs.«128273_j63677185130847_2_alg».proof.Proof.Gen.Pre_finite_inputs
import proofs.«128273_j63677185130847_2_alg».proof.Proof.Gen.ReferenceIdeal.Run
import proofs.«128273_j63677185130847_2_alg».proof.Proof.Gen.ReferenceIdeal.Read
import proofs.«128273_j63677185130847_2_alg».proof.Proof.KernelRun
import proofs.«128273_j63677185130847_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel's run ends with its result at the fold's final contents; the reference's generated run ends with its
    result at the operations' composed term of its arguments, which agree with the kernel's; under the precondition
    the two arrays are equal. -/
theorem algebraic : Cert.algebraic_KernelIdeal_ReferenceIdeal := by
  intro m g m' g' hpre hagree
  refine ⟨fun c => Cert.KernelIdeal.Gen.W8 (F := Ideal) m g c (Proc.devRef .tc Cert.KernelIdeal.main_v88),
    Cert.KernelIdeal.Named.run_named (F := Ideal) m g, ?_⟩
  refine (θ_run Cert.ReferenceIdeal.defs _ _).mono (fun _ h c => ⟨(h c).1.trans ?_, (h c).2⟩)
    (Cert.ReferenceIdeal.Value.run (F := Ideal) m' g')
  rw [Cert.ReferenceIdeal.Read.val_main_v104_eq]
  obtain ⟨e0, e1, e2, e3, e4, e5, e6, e7, e8⟩ := hagree c
  rw [e0, e1, e2, e3, e4, e5, e6, e7, e8]
  exact Cert.Bridge.result_eq m g hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
